-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x32x32 : Shape := ⟨4, ![4, 64, 32, 32]⟩
abbrev S_ : Shape := ⟨0, ![]⟩

class Facts : Prop where
  bcast_S_S4x64x32x32 : S_.BroadcastsInDim S4x64x32x32 (![] : Fin 0 → Fin S4x64x32x32.rank)
  reducesTo_S4x64x32x32_S_d0_1_2_3 : S4x64x32x32.ReducesTo [0, 1, 2, 3] S_
  h_S_ : 0 < S_.numel

variable [Facts]

def fn {F : FTy → Type} [FloatOps F] (main_arg0 : FVec F S4x64x32x32 .f32) (main_arg1 : FVec F S4x64x32x32 .f32) : IVec S_ 1 :=
  let main_v0 : FVec F S4x64x32x32 .f32 := Host.absf main_arg0
  let main_cst : FVec F S_ .f32 := constant S_ .f32 0x7F800000#32
  let main_v1 : FVec F S4x64x32x32 .f32 := broadcastInDim S4x64x32x32 ![] bcast_S_S4x64x32x32 main_cst
  let main_v2 : IVec S4x64x32x32 1 := cmpf .olt main_v0 main_v1
  let main_c : IVec S_ 1 := constantI S_ 1 1#1
  let main_v3 : IVec S_ 1 := (fun x v => Host.reduce IntOp.andi x v reducesTo_S4x64x32x32_S_d0_1_2_3 h_S_) main_v2 main_c
  let main_v4 : FVec F S4x64x32x32 .f32 := Host.absf main_arg1
  let main_cst_0 : FVec F S_ .f32 := constant S_ .f32 0x7F800000#32
  let main_v5 : FVec F S4x64x32x32 .f32 := broadcastInDim S4x64x32x32 ![] bcast_S_S4x64x32x32 main_cst_0
  let main_v6 : IVec S4x64x32x32 1 := cmpf .olt main_v4 main_v5
  let main_c_1 : IVec S_ 1 := constantI S_ 1 1#1
  let main_v7 : IVec S_ 1 := (fun x v => Host.reduce IntOp.andi x v reducesTo_S4x64x32x32_S_d0_1_2_3 h_S_) main_v6 main_c_1
  let main_v8 : IVec S_ 1 := andi main_v3 main_v7
  main_v8
-- ==== Kernel.lean ====
abbrev S4x64x32x32 : Shape := ⟨4, ![4, 64, 32, 32]⟩
abbrev S3 : Shape := ⟨1, ![3]⟩
abbrev S4x64x1024 : Shape := ⟨3, ![4, 64, 1024]⟩
abbrev S4x1024x64 : Shape := ⟨3, ![4, 1024, 64]⟩
abbrev S4096x64 : Shape := ⟨2, ![4096, 64]⟩
abbrev S1x4096x64 : Shape := ⟨3, ![1, 4096, 64]⟩
abbrev S2x4096x64 : Shape := ⟨3, ![2, 4096, 64]⟩
abbrev S3x1x1 : Shape := ⟨3, ![3, 1, 1]⟩
abbrev S1 : Shape := ⟨1, ![1]⟩
abbrev S1x512x64 : Shape := ⟨3, ![1, 512, 64]⟩
abbrev S1x1x1 : Shape := ⟨3, ![1, 1, 1]⟩
abbrev S1x1 : Shape := ⟨2, ![1, 1]⟩
abbrev S512x64 : Shape := ⟨2, ![512, 64]⟩
abbrev S4096 : Shape := ⟨1, ![4096]⟩
abbrev S4096x1 : Shape := ⟨2, ![4096, 1]⟩
abbrev S512 : Shape := ⟨1, ![512]⟩
abbrev S512x1 : Shape := ⟨2, ![512, 1]⟩
abbrev S1x512 : Shape := ⟨2, ![1, 512]⟩
abbrev S4096x512 : Shape := ⟨2, ![4096, 512]⟩
abbrev S64x512 : Shape := ⟨2, ![64, 512]⟩
abbrev S1x4096x512 : Shape := ⟨3, ![1, 4096, 512]⟩
abbrev S_ : Shape := ⟨0, ![]⟩

abbrev nBuf : Space → Nat
  | .hbm => 28
  | .vmem => 7
  | .smem => 2
  | _ => 0

abbrev bufTy : (tb : Table) → Fin (tcTables nBuf tb) → BufTy
  | .hbm, ⟨0, _⟩ => ⟨S4x64x32x32, .f32⟩
  | .hbm, ⟨1, _⟩ => ⟨S4x64x32x32, .f32⟩
  | .hbm, ⟨2, _⟩ => ⟨S4x64x1024, .f32⟩
  | .hbm, ⟨3, _⟩ => ⟨S4x1024x64, .f32⟩
  | .hbm, ⟨4, _⟩ => ⟨S4096x64, .f32⟩
  | .hbm, ⟨5, _⟩ => ⟨S4x64x1024, .f32⟩
  | .hbm, ⟨6, _⟩ => ⟨S4x1024x64, .f32⟩
  | .hbm, ⟨7, _⟩ => ⟨S4096x64, .f32⟩
  | .hbm, ⟨8, _⟩ => ⟨S1x4096x64, .f32⟩
  | .hbm, ⟨9, _⟩ => ⟨S1x4096x64, .f32⟩
  | .hbm, ⟨10, _⟩ => ⟨S2x4096x64, .f32⟩
  | .hbm, ⟨11, _⟩ => ⟨S3x1x1, .f32⟩
  | .hbm, ⟨12, _⟩ => ⟨S1x1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x4096x64, .f32⟩
  | .local _ .vmem, ⟨1, _⟩ => ⟨S1x4096x64, .f32⟩
  | .local _ .vmem, ⟨2, _⟩ => ⟨S1x512x64, .f32⟩
  | .local _ .vmem, ⟨3, _⟩ => ⟨S1x512x64, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | .local _ .smem, ⟨0, _⟩ => ⟨S3, .i32⟩
  | .local _ .smem, ⟨1, _⟩ => ⟨S3, .i32⟩
  | _, _ => ⟨S4x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_21 : BitVec 32 := 0#32
  let v57 : BitVec 1 := Scalar.cmpi .ne v56 c0_i32_21
  v57

def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S3) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x64x32x32_S4x64x1024 : S4x64x32x32.ShapeCasts S4x64x1024
  transposes_S4x64x1024_S4x1024x64_0_2_1 : S4x64x1024.Transposes [0, 2, 1] S4x1024x64
  shapeCasts_S4x1024x64_S4096x64 : S4x1024x64.ShapeCasts S4096x64
  bcast_S4096x64_S1x4096x64_1_2 : S4096x64.BroadcastsInDim S1x4096x64 (![1, 2] : Fin 2 → Fin S1x4096x64.rank)
  concatenates_S1x4096x64_S1x4096x64_S2x4096x64_d0 : Shape.Concatenates [S1x4096x64, S1x4096x64] S2x4096x64 0
  numel1_S1 : S1.numel = 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S4096x64_S4096 : S4096x64.Reduces [1] S4096
  shapeCasts_S4096_S4096x1 : S4096.ShapeCasts S4096x1
  reduces_S512x64_S512 : S512x64.Reduces [1] S512
  shapeCasts_S512_S512x1 : S512.ShapeCasts S512x1
  transposes_S512x1_p1_0_S1x512 : S512x1.Transposes [1, 0] S1x512
  broadcasts_S4096x1_S4096x512 : S4096x1.Broadcasts S4096x512
  broadcasts_S1x512_S4096x512 : S1x512.Broadcasts S4096x512
  transposes_S512x64_p1_0_S64x512 : S512x64.Transposes [1, 0] S64x512
  shapeCasts_S4096x512_S1x4096x512 : S4096x512.ShapeCasts S1x4096x512
  reduces_S1x4096x512_S1 : S1x4096x512.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S3x1x1_S1x1x1_0_0_0 : S3x1x1.Slices ![0, 0, 0] S1x1x1
  shapeCasts_S1x1x1_S_ : S1x1x1.ShapeCasts S_
  slices_S3x1x1_S1x1x1_1_0_0 : S3x1x1.Slices ![1, 0, 0] S1x1x1
  slices_S3x1x1_S1x1x1_2_0_0 : S3x1x1.Slices ![2, 0, 0] S1x1x1
  dot_S4096x64_S64x512_S4096x512_1_0_0_1_n_n_wf : DotDims.WF S4096x64 S64x512 S4096x512 [1] [0] [0] [1] [] []
  hrank0 : 0 < grid0.rank
  k0_off1_inb : ∀ i : grid0.Coords, ∀ a, (k0_off1 i) a + S1.size a ≤ S3.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S3x1x1.size a
  hwx0_2 : ∀ i : grid0.Coords, EltTy.bits .f32 = 32 ∨ (Rect.block (s := S3x1x1) S1x1x1.size (cc0_transform_2 i) (hinb0_2 i)).WholeWords (EltTy.packing .f32)

variable [Facts₀]

def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf

abbrev spec0_0 : Pipeline.WinSpec sig grid0.rank :=
  Pipeline.WinSpec.ofSpec (Memref.whole main_v8) S1x4096x64.size reads0_0 false false 2 stage0_0 sem0_0 nbuf0_0 hstage0_0

abbrev spec0_1 : Pipeline.WinSpec sig grid0.rank :=
  Pipeline.WinSpec.ofSpec (Memref.whole main_v8) S1x512x64.size reads0_1 false false 2 stage0_1 sem0_1 nbuf0_1 hstage0_1

abbrev spec0_2 : Pipeline.WinSpec sig grid0.rank :=
  Pipeline.WinSpec.ofSpec (Memref.whole main_v9) S1x1x1.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x4096x64.size a ≤ S2x4096x64.size a), EltTy.bits .f32 = 32 ∨ (Rect.block (s := S2x4096x64) S1x4096x64.size (cc0_transform_0 k0_off1_inb numel1_S1 pf i) h).WholeWords (EltTy.packing .f32)) ∧
  (∀ i : grid0.Coords, ∃ h : (∀ a, (cc0_transform_1 k0_off1_inb numel1_S1 pf i a + 1) * S1x512x64.size a ≤ S2x4096x64.size a), EltTy.bits .f32 = 32 ∨ (Rect.block (s := S2x4096x64) S1x512x64.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4x64x32x32 : Shape := ⟨4, ![4, 64, 32, 32]⟩
abbrev S4x64x1024 : Shape := ⟨3, ![4, 64, 1024]⟩
abbrev S4x1024x64 : Shape := ⟨3, ![4, 1024, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩

abbrev nBuf : Space → Nat
  | .hbm => 165
  | .vmem => 0
  | .smem => 0
  | _ => 0

abbrev hbmTy0_0 (i : Nat) : BufTy := match i % 128 with
  | 0 => ⟨S4x64x32x32, .f32⟩
  | 1 => ⟨S4x64x32x32, .f32⟩
  | 2 => ⟨S4x64x1024, .f32⟩
  | 3 => ⟨S4x1024x64, .f32⟩
  | 4 => ⟨S4096x64, .f32⟩
  | 5 => ⟨S4x64x1024, .f32⟩
  | 6 => ⟨S4x1024x64, .f32⟩
  | 7 => ⟨S4096x64, .f32⟩
  | 8 => ⟨S4096x64, .f32⟩
  | 9 => ⟨S_, .f32⟩
  | 10 => ⟨S4096, .f32⟩
  | 11 => ⟨S4096x64, .f32⟩
  | 12 => ⟨S_, .f32⟩
  | 13 => ⟨S4096, .f32⟩
  | 14 => ⟨S4096x1, .f32⟩
  | 15 => ⟨S1x4096, .f32⟩
  | 16 => ⟨S4096x4096, .f32⟩
  | 17 => ⟨S4096x4096, .f32⟩
  | 18 => ⟨S4096x4096, .f32⟩
  | 19 => ⟨S64x4096, .f32⟩
  | 20 => ⟨S4096x4096, .f32⟩
  | 21 => ⟨S_, .f32⟩
  | 22 => ⟨S4096x4096, .f32⟩
  | 23 => ⟨S4096x4096, .f32⟩
  | 24 => ⟨S4096x4096, .f32⟩
  | 25 => ⟨S_, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S_, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S4096x4096, .f32⟩
  | 50 => ⟨S_, .f32⟩
  | 51 => ⟨S4096x4096, .f32⟩
  | 52 => ⟨S4096x4096, .f32⟩
  | 53 => ⟨S4096x4096, .f32⟩
  | 54 => ⟨S4096x4096, .f32⟩
  | 55 => ⟨S_, .f32⟩
  | 56 => ⟨S_, .f32⟩
  | 57 => ⟨S_, .f32⟩
  | 58 => ⟨S_, .f32⟩
  | 59 => ⟨S4096x64, .f32⟩
  | 60 => ⟨S_, .f32⟩
  | 61 => ⟨S4096, .f32⟩
  | 62 => ⟨S4096x64, .f32⟩
  | 63 => ⟨S_, .f32⟩
  | 64 => ⟨S4096, .f32⟩
  | 65 => ⟨S4096x1, .f32⟩
  | 66 => ⟨S1x4096, .f32⟩
  | 67 => ⟨S4096x4096, .f32⟩
  | 68 => ⟨S4096x4096, .f32⟩
  | 69 => ⟨S4096x4096, .f32⟩
  | 70 => ⟨S64x4096, .f32⟩
  | 71 => ⟨S4096x4096, .f32⟩
  | 72 => ⟨S_, .f32⟩
  | 73 => ⟨S4096x4096, .f32⟩
  | 74 => ⟨S4096x4096, .f32⟩
  | 75 => ⟨S4096x4096, .f32⟩
  | 76 => ⟨S_, .f32⟩
  | 77 => ⟨S4096x4096, .f32⟩
  | 78 => ⟨S4096x4096, .f32⟩
  | 79 => ⟨S_, .f32⟩
  | 80 => ⟨S4096x4096, .f32⟩
  | 81 => ⟨S4096x4096, .f32⟩
  | 82 => ⟨S4096x4096, .f32⟩
  | 83 => ⟨S_, .f32⟩
  | 84 => ⟨S4096x4096, .f32⟩
  | 85 => ⟨S4096x4096, .f32⟩
  | 86 => ⟨S_, .f32⟩
  | 87 => ⟨S4096x4096, .f32⟩
  | 88 => ⟨S4096x4096, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S4096x4096, .f32⟩
  | 95 => ⟨S4096x4096, .f32⟩
  | 96 => ⟨S_, .f32⟩
  | 97 => ⟨S4096x4096, .f32⟩
  | 98 => ⟨S4096x4096, .f32⟩
  | 99 => ⟨S4096x4096, .f32⟩
  | 100 => ⟨S4096x4096, .f32⟩
  | 101 => ⟨S_, .f32⟩
  | 102 => ⟨S4096x4096, .f32⟩
  | 103 => ⟨S4096x4096, .f32⟩
  | 104 => ⟨S4096x4096, .f32⟩
  | 105 => ⟨S4096x4096, .f32⟩
  | 106 => ⟨S_, .f32⟩
  | 107 => ⟨S_, .f32⟩
  | 108 => ⟨S_, .f32⟩
  | 109 => ⟨S_, .f32⟩
  | 110 => ⟨S4096x64, .f32⟩
  | 111 => ⟨S_, .f32⟩
  | 112 => ⟨S4096, .f32⟩
  | 113 => ⟨S4096x64, .f32⟩
  | 114 => ⟨S_, .f32⟩
  | 115 => ⟨S4096, .f32⟩
  | 116 => ⟨S4096x1, .f32⟩
  | 117 => ⟨S1x4096, .f32⟩
  | 118 => ⟨S4096x4096, .f32⟩
  | 119 => ⟨S4096x4096, .f32⟩
  | 120 => ⟨S4096x4096, .f32⟩
  | 121 => ⟨S64x4096, .f32⟩
  | 122 => ⟨S4096x4096, .f32⟩
  | 123 => ⟨S_, .f32⟩
  | 124 => ⟨S4096x4096, .f32⟩
  | 125 => ⟨S4096x4096, .f32⟩
  | 126 => ⟨S4096x4096, .f32⟩
  | 127 => ⟨S_, .f32⟩
  | _ => ⟨S4x64x32x32, .f32⟩

abbrev hbmTy0_1 (i : Nat) : BufTy := match i % 128 with
  | 0 => ⟨S4096x4096, .f32⟩
  | 1 => ⟨S4096x4096, .f32⟩
  | 2 => ⟨S_, .f32⟩
  | 3 => ⟨S4096x4096, .f32⟩
  | 4 => ⟨S4096x4096, .f32⟩
  | 5 => ⟨S4096x4096, .f32⟩
  | 6 => ⟨S_, .f32⟩
  | 7 => ⟨S4096x4096, .f32⟩
  | 8 => ⟨S4096x4096, .f32⟩
  | 9 => ⟨S_, .f32⟩
  | 10 => ⟨S4096x4096, .f32⟩
  | 11 => ⟨S4096x4096, .f32⟩
  | 12 => ⟨S4096x4096, .f32⟩
  | 13 => ⟨S4096x4096, .f32⟩
  | 14 => ⟨S_, .f32⟩
  | 15 => ⟨S4096x4096, .f32⟩
  | 16 => ⟨S4096x4096, .f32⟩
  | 17 => ⟨S4096x4096, .f32⟩
  | 18 => ⟨S4096x4096, .f32⟩
  | 19 => ⟨S_, .f32⟩
  | 20 => ⟨S4096x4096, .f32⟩
  | 21 => ⟨S4096x4096, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S4096x4096, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | _ => ⟨S4x64x32x32, .f32⟩

abbrev hbmTy (i : Nat) : BufTy := match i / 128 with
  | 0 => hbmTy0_0 i
  | 1 => hbmTy0_1 i
  | _ => ⟨S4x64x32x32, .f32⟩

abbrev bufTy : (tb : Table) → Fin (tcTables nBuf tb) → BufTy
  | .hbm, ⟨i, _⟩ => hbmTy i
  | _, _ => ⟨S4x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_9 : Ref sig .tc := ⟨.hbm, 55, rfl⟩
abbrev main_v43 : Ref sig .tc := ⟨.hbm, 56, rfl⟩
abbrev main_cst_10 : Ref sig .tc := ⟨.hbm, 57, rfl⟩
abbrev main_v44 : Ref sig .tc := ⟨.hbm, 58, rfl⟩
abbrev main_v45 : Ref sig .tc := ⟨.hbm, 59, rfl⟩
abbrev main_cst_11 : Ref sig .tc := ⟨.hbm, 60, rfl⟩
abbrev main_v46 : Ref sig .tc := ⟨.hbm, 61, rfl⟩
abbrev main_v47 : Ref sig .tc := ⟨.hbm, 62, rfl⟩
abbrev main_cst_12 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_13 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_14 : Ref sig .tc := ⟨.hbm, 76, rfl⟩
abbrev main_v59 : Ref sig .tc := ⟨.hbm, 77, rfl⟩
abbrev main_v60 : Ref sig .tc := ⟨.hbm, 78, rfl⟩
abbrev main_cst_15 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_16 : Ref sig .tc := ⟨.hbm, 83, rfl⟩
abbrev main_v64 : Ref sig .tc := ⟨.hbm, 84, rfl⟩
abbrev main_v65 : Ref sig .tc := ⟨.hbm, 85, rfl⟩
abbrev main_cst_17 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_18 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_19 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_20 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_21 : Ref sig .tc := ⟨.hbm, 106, rfl⟩
abbrev main_v82 : Ref sig .tc := ⟨.hbm, 107, rfl⟩
abbrev main_cst_22 : Ref sig .tc := ⟨.hbm, 108, rfl⟩
abbrev main_v83 : Ref sig .tc := ⟨.hbm, 109, rfl⟩
abbrev main_v84 : Ref sig .tc := ⟨.hbm, 110, rfl⟩
abbrev main_cst_23 : Ref sig .tc := ⟨.hbm, 111, rfl⟩
abbrev main_v85 : Ref sig .tc := ⟨.hbm, 112, rfl⟩
abbrev main_v86 : Ref sig .tc := ⟨.hbm, 113, rfl⟩
abbrev main_cst_24 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_25 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_26 : Ref sig .tc := ⟨.hbm, 127, rfl⟩
abbrev main_v98 : Ref sig .tc := ⟨.hbm, 128, rfl⟩
abbrev main_v99 : Ref sig .tc := ⟨.hbm, 129, rfl⟩
abbrev main_cst_27 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_28 : Ref sig .tc := ⟨.hbm, 134, rfl⟩
abbrev main_v103 : Ref sig .tc := ⟨.hbm, 135, rfl⟩
abbrev main_v104 : Ref sig .tc := ⟨.hbm, 136, rfl⟩
abbrev main_cst_29 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_30 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_31 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_32 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_33 : Ref sig .tc := ⟨.hbm, 157, rfl⟩
abbrev main_v121 : Ref sig .tc := ⟨.hbm, 158, rfl⟩
abbrev main_cst_34 : Ref sig .tc := ⟨.hbm, 159, rfl⟩
abbrev main_v122 : Ref sig .tc := ⟨.hbm, 160, rfl⟩
abbrev main_v123 : Ref sig .tc := ⟨.hbm, 161, rfl⟩
abbrev main_cst_35 : Ref sig .tc := ⟨.hbm, 162, rfl⟩
abbrev main_v124 : Ref sig .tc := ⟨.hbm, 163, rfl⟩
abbrev main_v125 : Ref sig .tc := ⟨.hbm, 164, rfl⟩

abbrev nD : Nat := 1
abbrev τ : Topo := Topo.v7x

variable {F : FTy → Type} [FloatOps F]

class Facts₀ : Prop where
  shapeCasts_S4x64x32x32_S4x64x1024 : S4x64x32x32.ShapeCasts S4x64x1024
  transposes_S4x64x1024_S4x1024x64_0_2_1 : S4x64x1024.Transposes [0, 2, 1] S4x1024x64
  shapeCasts_S4x1024x64_S4096x64 : S4x1024x64.ShapeCasts S4096x64
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x64_S64x4096_1_0 : S4096x64.Transposes [1, 0] S64x4096
  bcast_S_S4096x4096 : S_.BroadcastsInDim S4096x4096 (![] : Fin 0 → Fin S4096x4096.rank)
  reducesTo_S4096x4096_S_d0_1 : S4096x4096.ReducesTo [0, 1] S_
  dot_S4096x64_S64x4096_S4096x4096_1_0_0_1_n_n_wf : DotDims.WF S4096x64 S64x4096 S4096x4096 [1] [0] [0] [1] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf

class Facts : Prop extends Facts₀ where

variable [Facts]
-- ==== Proof.BitsTables.lean ====
import proofs.«129605_j55473797595639_1_alg».proof.Proof.Gen.Kernel.Launch
import proofs.«129605_j55473797595639_1_alg».proof.Proof.Gen.Kernel.Skeleton
import Idealize.ShloMosaic.Lib.Pipeline.Regions

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two prefetched tables and the pipeline pinned at their contents.

The pallas_call's index maps read two tables of three words, which @main itself writes as constants:
the first operand's feature matrix per pair, (0, 1, 0), and the second's, (0, 1, 1). Every word is 0 or 1,
so every block the maps name lies inside the stacked [2, 4096, 64] array: the tables' contents are admissible. -/

/-- The tables' contents, as @main's two constants write them. -/
def tbl : pre0.Contents (Elt F) := fun
  | 0 => fun i => lit0 (S3.rowMajor i)
  | 1 => fun i => lit1 (S3.rowMajor i)
  | ⟨_ + 2, h⟩ => absurd h (Nat.not_lt.2 (Nat.le_add_left _ _))

/-- Every word of the first table is 0 or 1; -/
theorem lit0_le (j : Fin 3) : (lit0 j).toNat ≤ 1 := by revert j; decide
/-- and of the second. -/
theorem lit1_le (j : Fin 3) : (lit1 j).toNat ≤ 1 := by revert j; decide

theorem bound_le (w : BitVec 32) (h : w.toNat ≤ 1) : (w.toNat + 1) * 1 ≤ 2 := by omega

/-- At these contents every block is inside its array: the leading index is a table word (at most 1, of 2 matrices),
    the column tile's row index is the tile's number (at most 7, of 8 tiles of 512 rows), the rest are zero. -/
theorem ok_tbl : ok0 (F := F) tbl := by
  refine ⟨fun i => ⟨fun a => ?_, Or.inl rfl⟩, fun i => ⟨fun a => ?_, Or.inl rfl⟩⟩
  · match a with
    | ⟨0, _⟩ => exact (show ((lit0 (S3.rowMajor _)).toNat + 1) * 1 ≤ 2 from bound_le _ (lit0_le _))
    | ⟨1, _⟩ => exact (show (0 + 1) * 4096 ≤ 4096 from by decide)
    | ⟨2, _⟩ => exact (show (0 + 1) * 64 ≤ 64 from by decide)
  · match a with
    | ⟨0, _⟩ => exact (show ((lit1 (S3.rowMajor _)).toNat + 1) * 1 ≤ 2 from bound_le _ (lit1_le _))
    | ⟨1, _⟩ =>
      have h : (i 1).val < 8 := (i 1).isLt
      exact (show ((BitVec.ofNat 32 (i 1).val).toNat + 1) * 512 ≤ 4096 from by rw [BitVec.toNat_ofNat]; omega)
    | ⟨2, _⟩ => exact (show (0 + 1) * 64 ≤ 64 from by decide)

/-- The admissible contents the region runs at, -/
abbrev adm : (p : Fin 1) → (pcfgs (F := F) p).Adm := fun _ => ⟨tbl, ok_tbl⟩
/-- and the pipeline at them: 3 pairs × 8 column tiles. -/
abbrev cfgA : Pipeline.Cfg sig Λ₀ := cfg0 (F := F) (adm 0)

theorem N_A : (cfgA (F := F)).N = 24 := N_0

end Cert.Kernel.Hand
end
-- ==== Proof.BitsBody.lean ====
import proofs.«129605_j55473797595639_1_alg».proof.Proof.Gen.Kernel.Launch
import proofs.«129605_j55473797595639_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at one grid point, as a transformer of what its four buffers hold.

With the scratch accumulator holding `s`, the resident operand's block `x0` and the column tile's block `x1`:
at the first column tile the accumulator is reset to the zero splat before the tile's total is added;
at every tile the accumulator becomes `step` of it; at the last tile the accumulator is copied into the
output block. Nothing else is written. -/

/-- The first column tile of a pair (`j = 0`), as the body tests it. -/
abbrev cond1 (i : grid0.Coords) : Prop := (Scalar.cmpi .ne (Scalar.extui (Scalar.cmpi .eq (BitVec.ofNat 32 (i 1).val) 0#32)) 0#32) = 1#1
/-- The last column tile of a pair (`j = 7`), as the body tests it. -/
abbrev cond2 (i : grid0.Coords) : Prop := k0_cond2 i = 1#1

/-- One step of the accumulation: the tile's total (inside `k0_pay1`) added to the accumulator `s`. -/
def step (x0 : Vec F S1x4096x64 .f32) (x1 : Vec F S1x512x64 .f32) (s : Vec F S1x1 .f32) : Vec F S1x1 .f32 :=
  k0_pay1 (k0_pay4 x0 x1) (k0_pay5 x0 x1) (k0_pay6 x0 x1) s

theorem hz2 : (![0, 0] : Fin 2 → Nat) = fun _ => 0 := funext fun a => match a with | ⟨0, _⟩ => rfl | ⟨1, _⟩ => rfl
theorem hz3 : (![0, 0, 0] : Fin 3 → Nat) = fun _ => 0 := funext fun a => match a with | ⟨0, _⟩ => rfl | ⟨1, _⟩ => rfl | ⟨2, _⟩ => rfl

/-- A store through the whole buffer, last, leaves its payload, whatever was stored before. -/
theorem read_store_whole {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A middle tile: the accumulator takes one step; the output block is untouched. -/
theorem run_mid (c : Dev nD) (i : grid0.Coords) (arg2 : Memref sig .tc .smem S3 .i32) (harg2 : arg2.IsWhole) (arg3 : Memref sig .tc .smem S3 .i32) (harg3 : arg3.IsWhole)
    (arg4 : Memref sig .tc .vmem S1x4096x64 .f32) (harg4 : arg4.IsWhole) (arg5 : Memref sig .tc .vmem S1x512x64 .f32) (harg5 : arg5.IsWhole)
    (arg6 : Memref sig .tc .vmem S1x1x1 .f32) (harg6 : arg6.IsWhole) (arg7 : Memref sig .tc .vmem S1x1 .f32) (harg7 : arg7.IsWhole)
    (hc1 : ¬cond1 i) (hc2 : ¬cond2 i)
    (x0 : Vec F S1x4096x64 .f32) (x1 : Vec F S1x512x64 .f32) (xo : Vec F S1x1x1 .f32) (s : Vec F S1x1 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (step x0 x1 s)) -∗ K ⟨⟩))
      ⊢ wp frame (wpE (defs₀ (F := F)) Variants.none c none) E (cc0__pair_mmd_kernel i arg2 harg2 arg3 harg3 arg4 harg4 arg5 harg5 arg6 harg6 arg7 harg7) K := by
  simp only [cc0__pair_mmd_kernel_eq_skeleton]; unfold cc0__pair_mmd_kernel_skel
  simp only [k0_part1_eq_skeleton]; unfold k0_part1_skel
  unfold owns
  iintro ⟨⟨%f4, %hf4, H4⟩, ⟨%f5, %hf5, H5⟩, ⟨%f6, %hf6, H6⟩, ⟨%f7, %hf7, H7⟩, Hk⟩
  obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; (· iexact H7)
  ipureintro
  rw [read_store_whole _ _ hz2]
  dsimp only
  simp only [View.readAt_eq_ld, harg4.read_unread, harg5.read_unread, harg7.read_unread,
    View.ld_unit_zero (S := S1x4096x64) hz3, View.ld_unit_zero (S := S1x512x64) hz3, View.ld_unit_zero (S := S1x1) hz2]
  rfl

/-- The first tile: the accumulator is reset to the zero splat (`k0_pay3`), then takes one step. -/
theorem run_first (c : Dev nD) (i : grid0.Coords) (arg2 : Memref sig .tc .smem S3 .i32) (harg2 : arg2.IsWhole) (arg3 : Memref sig .tc .smem S3 .i32) (harg3 : arg3.IsWhole)
    (arg4 : Memref sig .tc .vmem S1x4096x64 .f32) (harg4 : arg4.IsWhole) (arg5 : Memref sig .tc .vmem S1x512x64 .f32) (harg5 : arg5.IsWhole)
    (arg6 : Memref sig .tc .vmem S1x1x1 .f32) (harg6 : arg6.IsWhole) (arg7 : Memref sig .tc .vmem S1x1 .f32) (harg7 : arg7.IsWhole)
    (hc1 : cond1 i) (hc2 : ¬cond2 i)
    (x0 : Vec F S1x4096x64 .f32) (x1 : Vec F S1x512x64 .f32) (xo : Vec F S1x1x1 .f32) (s : Vec F S1x1 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (step x0 x1 (k0_pay3 (F := F)))) -∗ K ⟨⟩))
      ⊢ wp frame (wpE (defs₀ (F := F)) Variants.none c none) E (cc0__pair_mmd_kernel i arg2 harg2 arg3 harg3 arg4 harg4 arg5 harg5 arg6 harg6 arg7 harg7) K := by
  simp only [cc0__pair_mmd_kernel_eq_skeleton]; unfold cc0__pair_mmd_kernel_skel
  simp only [k0_part1_eq_skeleton]; unfold k0_part1_skel
  unfold owns
  iintro ⟨⟨%f4, %hf4, H4⟩, ⟨%f5, %hf5, H5⟩, ⟨%f6, %hf6, H6⟩, ⟨%f7, %hf7, H7⟩, Hk⟩
  obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; (· iexact H7)
  ipureintro
  rw [read_store_whole _ _ hz2]
  dsimp only
  sl_unfold_words
  simp only [View.readAt_eq_ld, harg4.read_unread, harg5.read_unread,
    View.ld_unit_zero (S := S1x4096x64) hz3, View.ld_unit_zero (S := S1x512x64) hz3]
  exact congrArg (k0_pay1 (k0_pay4 x0 x1) (k0_pay5 x0 x1) (k0_pay6 x0 x1))
    (View.readCov_cons_toLoadRect (Val := Elt F) arg7.view (Rect.unit ![0, 0] S1x1.size inb_S1x1_S1x1_0_0) (k0_pay3 (F := F)) [])

/-- The last tile: the accumulator takes one step and is copied into the output block (`k0_pay2`). -/
theorem run_last (c : Dev nD) (i : grid0.Coords) (arg2 : Memref sig .tc .smem S3 .i32) (harg2 : arg2.IsWhole) (arg3 : Memref sig .tc .smem S3 .i32) (harg3 : arg3.IsWhole)
    (arg4 : Memref sig .tc .vmem S1x4096x64 .f32) (harg4 : arg4.IsWhole) (arg5 : Memref sig .tc .vmem S1x512x64 .f32) (harg5 : arg5.IsWhole)
    (arg6 : Memref sig .tc .vmem S1x1x1 .f32) (harg6 : arg6.IsWhole) (arg7 : Memref sig .tc .vmem S1x1 .f32) (harg7 : arg7.IsWhole)
    (hc1 : ¬cond1 i) (hc2 : cond2 i)
    (x0 : Vec F S1x4096x64 .f32) (x1 : Vec F S1x512x64 .f32) (xo : Vec F S1x1x1 .f32) (s : Vec F S1x1 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare (k0_pay2 (step x0 x1 s)) ∗ owns (c : Thread nD τ) arg7 fullShare (step x0 x1 s)) -∗ K ⟨⟩))
      ⊢ wp frame (wpE (defs₀ (F := F)) Variants.none c none) E (cc0__pair_mmd_kernel i arg2 harg2 arg3 harg3 arg4 harg4 arg5 harg5 arg6 harg6 arg7 harg7) K := by
  simp only [cc0__pair_mmd_kernel_eq_skeleton]; unfold cc0__pair_mmd_kernel_skel
  simp only [k0_part1_eq_skeleton]; unfold k0_part1_skel
  unfold owns
  iintro ⟨⟨%f4, %hf4, H4⟩, ⟨%f5, %hf5, H5⟩, ⟨%f6, %hf6, H6⟩, ⟨%f7, %hf7, H7⟩, Hk⟩
  obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H4]; · iexists _; isplitr; · ipureintro; exact hf4
                  iexact H4
  isplitl [H5]; · iexists _; isplitr; · ipureintro; exact hf5
                  iexact H5
  isplitl [H6]
  · iexists _; isplitr; swap; (· iexact H6)
    ipureintro
    rw [read_store_whole _ _ hz3]
    sl_unfold_words
    dsimp only
    rw [View.readCov_cons_toLoadRect]
    simp only [View.readAt_eq_ld, harg4.read_unread, harg5.read_unread, harg7.read_unread,
      View.ld_unit_zero (S := S1x4096x64) hz3, View.ld_unit_zero (S := S1x512x64) hz3, View.ld_unit_zero (S := S1x1) hz2]
    rfl
  iexists _; isplitr; swap; (· iexact H7)
  ipureintro
  sl_unfold_words
  rw [read_store_whole _ _ hz2]
  dsimp only
  simp only [View.readAt_eq_ld, harg4.read_unread, harg5.read_unread, harg7.read_unread,
    View.ld_unit_zero (S := S1x4096x64) hz3, View.ld_unit_zero (S := S1x512x64) hz3, View.ld_unit_zero (S := S1x1) hz2]
  rfl

end Cert.Kernel.Hand
end
-- ==== Proof.BitsData.lean ====
import proofs.«129605_j55473797595639_1_alg».proof.Proof.BitsTables
import proofs.«129605_j55473797595639_1_alg».proof.Proof.BitsBody
import Idealize.ShloMosaic.Lib.Pipeline.Kit

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s buffers at launch, as the host operations' valuation; -/
abbrev V₀ (c : Dev nD) : Valuation τ sig (Elt F) := fun b => m ((c : Dev nD), b)
/-- and when the region is entered: the eleven operations before the call have run. -/
abbrev V (c : Dev nD) (b : Ref sig .tc) : Buf (Elt F) ((c : Thread nD τ).loc b) := StableHlo.after hostOps0 (V₀ m c) b

/-- The two tables hold @main's constants when the region is entered. -/
theorem V_tbl (c : Dev nD) (k : Fin pre0.K) : V m c (pre0.ref k) = tbl (F := F) k := by
  match k with
  | ⟨0, _⟩ => dsimp only [V, hostOps0]; after_results; rfl
  | ⟨1, _⟩ => dsimp only [V, hostOps0]; after_results; rfl

/-! ## The grid's points -/

/-- The first column tile of each pair: the points 0, 8, 16. -/
theorem hcond1 : ∀ t : Fin (cfgA (F := F)).N, cond1 (grid0.coords t) ↔ t.val % 8 = 0 :=
  (by decide +kernel : ∀ t : Fin grid0.N, cond1 (grid0.coords t) ↔ t.val % 8 = 0)
/-- The last column tile of each pair: the points 7, 15, 23. -/
theorem hcond2 : ∀ t : Fin (cfgA (F := F)).N, cond2 (grid0.coords t) ↔ t.val % 8 = 7 :=
  (by decide +kernel : ∀ t : Fin grid0.N, cond2 (grid0.coords t) ↔ t.val % 8 = 7)

/-- The two input windows are never idle. -/
theorem live0 : ∀ i, (cfgA (F := F)).idle 0 i = false := fun _ => rfl
theorem live1 : ∀ i, (cfgA (F := F)).idle 1 i = false := fun _ => rfl
/-- The output window is idle except at a pair's last tile, -/
theorem idle2 : ∀ t : Fin (cfgA (F := F)).N, (cfgA (F := F)).idle 2 (grid0.coords t) = true ↔ ¬ t.val % 8 = 7 :=
  (by decide +kernel : ∀ t : Fin grid0.N, idle0 2 (grid0.coords t) = true ↔ ¬ t.val % 8 = 7)
/-- which is also where its block is written back. -/
theorem flush2 : ∀ t : Fin (cfgA (F := F)).N, ((cfgA (F := F)).win 2).flush t = true ↔ t.val % 8 = 7 :=
  (by decide +kernel : ∀ t : Fin grid0.N, Pipeline.Window.flushOf grid0 true cc0_transform_2 t = true ↔ t.val % 8 = 7)

/-! ## The windows' blocks and the accumulation -/

/-- Window `w`'s block at point `t`, read off its array as the region finds it. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- The resident operand's block and the column tile's block at point `t`, as the body loads them. -/
abbrev blkA (c : Dev nD) (t : Fin (cfgA (F := F)).N) : Vec F S1x4096x64 .f32 := iblk m c 0 t
abbrev blkB (c : Dev nD) (t : Fin (cfgA (F := F)).N) : Vec F S1x512x64 .f32 := iblk m c 1 t

/-- THE ACCUMULATION. What the scratch holds after the body at position `n`: one step from the zero splat at a pair's
    first tile, one step from what the point before left at every other. -/
def accAt (c : Dev nD) : (n : ℕ) → n < (cfgA (F := F)).N → Vec F S1x1 .f32
  | 0, hn => step (blkA m c ⟨0, hn⟩) (blkB m c ⟨0, hn⟩) (k0_pay3 (F := F))
  | n + 1, hn => step (blkA m c ⟨n + 1, hn⟩) (blkB m c ⟨n + 1, hn⟩)
      (if (n + 1) % 8 = 0 then k0_pay3 (F := F) else accAt c n (Nat.lt_of_succ_lt hn))

theorem accAt_first (c : Dev nD) (t : Fin (cfgA (F := F)).N) (h : t.val % 8 = 0) :
    accAt m c t.val t.isLt = step (blkA m c t) (blkB m c t) (k0_pay3 (F := F)) := by
  obtain ⟨n, hn⟩ := t
  cases n with
  | zero => rfl
  | succ n => exact congrArg (step _ _) (if_pos h)

theorem accAt_next (c : Dev nD) (t : Fin (cfgA (F := F)).N) (h : ¬ t.val % 8 = 0) :
    accAt m c t.val t.isLt = step (blkA m c t) (blkB m c t) (accAt m c (t.val - 1) (Nat.lt_of_le_of_lt (Nat.sub_le _ _) t.isLt)) := by
  obtain ⟨n, hn⟩ := t
  cases n with
  | zero => exact absurd (Nat.zero_mod 8) h
  | succ n => exact congrArg (step _ _) (if_neg h)

/-! ## The region's invariant and proof data -/

/-- The two tables, which the region holds whole while it runs. -/
abbrev Tb (c : Dev nD) : sProp 𝕄 := Pipeline.prefHeld pre0 c (fun _ => fullShare) (tbl (F := F))
/-- The scratch accumulator as a memref. -/
abbrev scM : Memref sig .tc .vmem S1x1 .f32 := Memref.whole cc0_scratch0

/-- The invariant before position `n`: the tables; the scratch at anything before the first point, afterwards at what the
    point before left in it. -/
def PhiS (c : Dev nD) : (n : ℕ) → n ≤ (cfgA (F := F)).N → sProp 𝕄
  | 0, _ => iprop(Tb c ∗ ∃ d, owns (c : Thread nD τ) scM fullShare d)
  | n + 1, hn => iprop(Tb c ∗ owns (c : Thread nD τ) scM fullShare (accAt m c n hn))

theorem PhiS_zero (c : Dev nD) (n : ℕ) (h : n ≤ (cfgA (F := F)).N) (hz : n = 0) :
    PhiS m c n h = iprop(Tb c ∗ ∃ d, owns (c : Thread nD τ) scM fullShare d) := by subst hz; rfl
theorem PhiS_succ (c : Dev nD) (n : ℕ) (hn : n < (cfgA (F := F)).N) :
    PhiS m c (n + 1) hn = iprop(Tb c ∗ owns (c : Thread nD τ) scM fullShare (accAt m c n hn)) := rfl
theorem PhiS_pos (c : Dev nD) (n : ℕ) (h : n ≤ (cfgA (F := F)).N) (hz : n ≠ 0) :
    PhiS m c n h = iprop(Tb c ∗ owns (c : Thread nD τ) scM fullShare (accAt m c (n - 1) (by omega))) := by
  cases n with
  | zero => exact absurd rfl hz
  | succ n => rfl

/-- The proof data on core `c`: the arrays as the region finds them; after the body each input's buffer at its block and
    the output's at the accumulator (where it is stored at all); the stacked array shared half and half between the two
    input windows that read it; nothing owed. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => k0_pay2 (accAt m c t.val t.isLt)
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin (cfgA (F := F)).W) : (dats m 0 c).A w = V m c (Pipeline.arrRef spec0 w) := by
  dsimp only [dats]
theorem PhiS_castSucc (c : Dev nD) (t : Fin (cfgA (F := F)).N) :
    (dats m 0 c).Φ t.castSucc = PhiS m c t.val (Nat.le_of_lt t.isLt) := by
  dsimp only [dats]; simp only [Fin.coe_castSucc]
theorem after0 (c : Dev nD) (t : Fin (cfgA (F := F)).N) : (dats m 0 c).after 0 t = iblk m c 0 t := by dsimp only [dats]; rfl
theorem after1 (c : Dev nD) (t : Fin (cfgA (F := F)).N) : (dats m 0 c).after 1 t = iblk m c 1 t := by dsimp only [dats]; rfl
theorem after2 (c : Dev nD) (t : Fin (cfgA (F := F)).N) : (dats m 0 c).after 2 t = k0_pay2 (accAt m c t.val t.isLt) := by dsimp only [dats]; rfl

/-- Each input's current staging buffer holds its block at every point, fetched there or not. -/
theorem before0 (c : Dev nD) (t : Fin (cfgA (F := F)).N) (d) : (dats m 0 c).before 0 t d = iblk m c 0 t :=
  ((dats m 0 c).before_in_eq_fetched 0 rfl live0 (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin (cfgA (F := F)).N) (d) : (dats m 0 c).before 1 t d = iblk m c 1 t :=
  ((dats m 0 c).before_in_eq_fetched 1 rfl live1 (fun _ _ _ => rfl)
      (fun t => by rw [after1]; unfold Dat.blockOf iblk; rw [A_eq]; try rfl) t d).trans
    (by unfold Dat.fetched Dat.blockOf iblk; rw [A_eq]; try rfl)

/-! ## The body obligation -/

/-- Each window's current staging memref at point `t`, as the pipeline passes it, and its wholeness. -/
abbrev ms0 (t : Fin (cfgA (F := F)).N) : Memref sig .tc .vmem S1x4096x64 .f32 := spec0_0.stage ((cfgA (F := F)).slots t 0)
abbrev hs0 (t : Fin (cfgA (F := F)).N) : (ms0 (F := F) t).IsWhole := hstage0_0 (((cfgA (F := F)).slots t 0).cast nbuf0_0)
abbrev ms1 (t : Fin (cfgA (F := F)).N) : Memref sig .tc .vmem S1x512x64 .f32 := spec0_1.stage ((cfgA (F := F)).slots t 1)
abbrev hs1 (t : Fin (cfgA (F := F)).N) : (ms1 (F := F) t).IsWhole := hstage0_1 (((cfgA (F := F)).slots t 1).cast nbuf0_1)
abbrev ms2 (t : Fin (cfgA (F := F)).N) : Memref sig .tc .vmem S1x1x1 .f32 := spec0_2.stage ((cfgA (F := F)).slots t 2)
abbrev hs2 (t : Fin (cfgA (F := F)).N) : (ms2 (F := F) t).IsWhole := hstage0_2 (((cfgA (F := F)).slots t 2).cast nbuf0_2)

/-- The kernel body at point `t`, on what the pipeline calls it with. -/
abbrev bodyAt (t : Fin (cfgA (F := F)).N) : Prog (TpuEff nD τ sig (Elt F) Λ₀ .tc) PUnit :=
  cc0__pair_mmd_kernel (grid0.coords t) (Memref.whole main_c) (Memref.isWhole_whole _) (Memref.whole main_c_0) (Memref.isWhole_whole _)
    (ms0 t) (hs0 t) (ms1 t) (hs1 t) (ms2 t) (hs2 t) (Memref.whole cc0_scratch0) (Memref.isWhole_whole _)

/-- What the body is called with at point `t`, the windows one by one, -/
def bodyPre (c : Dev nD) (t : Fin (cfgA (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin (cfgA (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point: the inputs' buffers hold their blocks; the point is a pair's first tile, a middle one or its
    last, and that case's run applies; the invariant hands the body the scratch at what the point before left (at anything
    before the first point) and takes it back at this point's value. -/
theorem sound_body (c : Dev nD) (t : Fin (cfgA (F := F)).N) :
    bodyPre m c t ⊢ wp frame (wpE (defs₀ (F := F)) Variants.none c none) Set.univ (bodyAt t) (fun _ => bodyPost m c t) := by
  unfold bodyPre bodyPost bodyAt
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0]; rfl, after0]
  rw [show (dats m 0 c).leavesExact 1 t = owns (c : Thread nD τ) (ms1 t) fullShare ((dats m 0 c).after 1 t) from by
    unfold Dat.leavesExact; rw [live1]; rfl, after1]
  have hN : t.val < 24 := lt_of_lt_of_eq t.isLt (N_A (F := F))
  by_cases h7 : t.val % 8 = 7
  · have h0 : ¬ t.val % 8 = 0 := by omega
    have hz : t.val ≠ 0 := by omega
    have hi2 : (cfgA (F := F)).idle 2 (grid0.coords t) = false := Bool.eq_false_iff.mpr fun h => (idle2 t).mp h h7
    rw [show (dats m 0 c).leavesExact 2 t = owns (c : Thread nD τ) (ms2 t) fullShare ((dats m 0 c).after 2 t) from by
      unfold Dat.leavesExact; rw [hi2]; rfl, after2]
    rw [accAt_next m c t h0, PhiS_castSucc m c t, PhiS_pos m c _ _ hz]
    iintro ⟨⟨HT, HS⟩, Ho, ⟨%d0, H0⟩, ⟨%d1, H1⟩, ⟨%d2, H2⟩⟩
    iapply (run_last c (grid0.coords t) _ _ _ _ _ (hs0 t) _ (hs1 t) _ (hs2 t) _ (Memref.isWhole_whole _)
      (fun h => h0 ((hcond1 t).mp h)) ((hcond2 t).mpr h7) (blkA m c t) (blkB m c t) _ _ Set.univ _)
    isplitl [H0]; · iexact H0
    isplitl [H1]; · iexact H1
    isplitl [H2]; · iexact H2
    isplitl [HS]; · iexact HS
    iintro ⟨H0, H1, H2, HS⟩
    isplitl [HT HS]
    · isplitl [HT]; · iexact HT
      iexact HS
    isplitl [Ho]; · iexact Ho
    isplitl [H0]; · iexact H0
    isplitl [H1]; · iexact H1
    iexact H2
  · have hi2 : (cfgA (F := F)).idle 2 (grid0.coords t) = true := (idle2 t).mpr h7
    have hf2 : ((cfgA (F := F)).win 2).flush t = false := Bool.eq_false_iff.mpr fun h => h7 ((flush2 t).mp h)
    rw [Dat.leavesExact_idle (dats m 0 c) 2 t hi2 hf2]
    by_cases h0 : t.val % 8 = 0
    · rw [accAt_first m c t h0]
      have key : ∀ s : Vec F S1x1 .f32,
          iprop(Tb c ∗ owns (c : Thread nD τ) scM fullShare s ∗ (dats m 0 c).owesAt () t.castSucc
              ∗ owns (c : Thread nD τ) (ms0 t) fullShare (iblk m c 0 t) ∗ owns (c : Thread nD τ) (ms1 t) fullShare (iblk m c 1 t)
              ∗ (∃ d, owns (c : Thread nD τ) (ms2 t) fullShare ((dats m 0 c).before 2 t d)))
            ⊢ wp frame (wpE (defs₀ (F := F)) Variants.none c none) Set.univ (bodyAt t) (fun _ =>
                iprop(iprop(Tb c ∗ owns (c : Thread nD τ) scM fullShare (step (blkA m c t) (blkB m c t) (k0_pay3 (F := F))))
                  ∗ (dats m 0 c).owesAt () t.castSucc ∗ owns (c : Thread nD τ) (ms0 t) fullShare (iblk m c 0 t)
                  ∗ owns (c : Thread nD τ) (ms1 t) fullShare (iblk m c 1 t)
                  ∗ ∃ d, owns (c : Thread nD τ) (ms2 t) fullShare ((dats m 0 c).before 2 t d))) := fun s => by
        iintro ⟨HT, HS, Ho, H0, H1, ⟨%d2, H2⟩⟩
        iapply (run_first c (grid0.coords t) _ _ _ _ _ (hs0 t) _ (hs1 t) _ (hs2 t) _ (Memref.isWhole_whole _)
          ((hcond1 t).mpr h0) (fun h => h7 ((hcond2 t).mp h)) (blkA m c t) (blkB m c t) _ s Set.univ _)
        isplitl [H0]; · iexact H0
        isplitl [H1]; · iexact H1
        isplitl [H2]; · iexact H2
        isplitl [HS]; · iexact HS
        iintro ⟨H0, H1, H2, HS⟩
        isplitl [HT HS]
        · isplitl [HT]; · iexact HT
          iexact HS
        isplitl [Ho]; · iexact Ho
        isplitl [H0]; · iexact H0
        isplitl [H1]; · iexact H1
        iexists _; iexact H2
      by_cases hz : t.val = 0
      · rw [PhiS_castSucc m c t, PhiS_zero m c _ _ hz]
        iintro ⟨⟨HT, ⟨%s, HS⟩⟩, Ho, ⟨%d0, H0⟩, ⟨%d1, H1⟩, H2⟩
        iapply (key s)
        isplitl [HT]; · iexact HT
        isplitl [HS]; · iexact HS
        isplitl [Ho]; · iexact Ho
        isplitl [H0]; · iexact H0
        isplitl [H1]; · iexact H1
        iexact H2
      · rw [PhiS_castSucc m c t, PhiS_pos m c _ _ hz]
        iintro ⟨⟨HT, HS⟩, Ho, ⟨%d0, H0⟩, ⟨%d1, H1⟩, H2⟩
        iapply (key _)
        isplitl [HT]; · iexact HT
        isplitl [HS]; · iexact HS
        isplitl [Ho]; · iexact Ho
        isplitl [H0]; · iexact H0
        isplitl [H1]; · iexact H1
        iexact H2
    · have hz : t.val ≠ 0 := fun h => h0 (by rw [h])
      rw [accAt_next m c t h0, PhiS_castSucc m c t, PhiS_pos m c _ _ hz]
      iintro ⟨⟨HT, HS⟩, Ho, ⟨%d0, H0⟩, ⟨%d1, H1⟩, ⟨%d2, H2⟩⟩
      iapply (run_mid c (grid0.coords t) _ _ _ _ _ (hs0 t) _ (hs1 t) _ (hs2 t) _ (Memref.isWhole_whole _)
        (fun h => h0 ((hcond1 t).mp h)) (fun h => h7 ((hcond2 t).mp h)) (blkA m c t) (blkB m c t) _ _ Set.univ _)
      isplitl [H0]; · iexact H0
      isplitl [H1]; · iexact H1
      isplitl [H2]; · iexact H2
      isplitl [HS]; · iexact HS
      iintro ⟨H0, H1, H2, HS⟩
      isplitl [HT HS]
      · isplitl [HT]; · iexact HT
        iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand
end
-- ==== Proof.BitsSegs.lean ====
import proofs.«129605_j55473797595639_1_alg».proof.Proof.BitsData
import Idealize.ShloMosaic.Lib.Pipeline.Regions
import Idealize.ShloMosaic.Lib.Pipeline.FrameSuffix
import Idealize.ShloMosaic.Lib.Pipeline.Kit
import Idealize.ShloMosaic.Lib.StableHlo.Run

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The launch: @main as three segments — the host operations before the call, the region, the host operations after it.

The region is entered from every unscoped buffer held whole. It takes the stacked feature array — read by BOTH input
windows, so held half and half —, the output array and the two tables; everything else bypasses it. It is left with
the output array at its final contents, and the lines after it run within that array and the bypassing buffers. -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through the segments: the core's `owes`, at nothing. -/
abbrev R (c : Dev nD) : sProp 𝕄 := iprop(∃ W, owes (c : Thread nD τ) (0 : CellTallies nD τ sig Unit) W)

/-- The TensorCore's unscoped references; -/
abbrev U0 : Finset (Ref sig .tc) := Finset.univ.filter fun b : Ref sig .tc => ¬ b.isScoped
/-- all of them but the stacked array, the output array and the two tables: what bypasses the region. -/
abbrev restR : Finset (Ref sig .tc) := (((U0.erase main_v8).erase main_v9).erase main_c).erase main_c_0

theorem h8 : main_v8 ∈ U0 := by decide
theorem h9 : main_v9 ∈ U0.erase main_v8 := by decide
theorem hc : main_c ∈ (U0.erase main_v8).erase main_v9 := by decide
theorem hc0 : main_c_0 ∈ ((U0.erase main_v8).erase main_v9).erase main_c := by decide
theorem h9r : main_v9 ∉ restR := by decide

/-- The pipeline's arrays, one by one: the stacked array at the two halves of the full share, the output array whole. -/
theorem arrays_eq3 (c : Dev nD) (G : (w : Fin (cfgA (F := F)).W) → Buf (Elt F) (((cfgA (F := F)).win w).arr.view.loc (c : Thread nD τ))) :
    ((dats m 0 c).arrays G : sProp 𝕄) = iprop((((c : Thread nD τ).loc main_v8) ↦{fullShare.left} G 0) ∗ (((c : Thread nD τ).loc main_v8) ↦{fullShare.right} G 1)
      ∗ (((c : Thread nD τ).loc main_v9) ↦{fullShare} G 2)) := by
  unfold Dat.arrays; rw [bigSep_W0]
  rw [(arr_whole0 0).set_eq_univ, (arr_whole0 2).set_eq_univ]
  rfl

/-- The two tables, one by one. -/
theorem tb_eq (c : Dev nD) : (Tb (F := F) c : sProp 𝕄) = iprop((((c : Thread nD τ).loc main_c) ↦{fullShare} tbl (F := F) 0) ∗ (((c : Thread nD τ).loc main_c_0) ↦{fullShare} tbl (F := F) 1)) := by
  unfold Tb Pipeline.prefHeld
  rw [bigSep_univ_eq_bigSepL [(0 : Fin 2), (1 : Fin 2)] (by decide) (by decide)]
  rfl

/-! ## The host operations before the region -/

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-! ## The host operations after the region -/

/-- The buffers the lines after the region run within: the output array and what bypassed the region. -/
abbrev S1 : Finset (DevRef τ sig) := (insert main_v9 restR).map ⟨Proc.devRef (sig := sig) .tc, Proc.devRef_injective _⟩

/-- Core `c`'s buffers when the region is left: as it was entered, but the output array at its final contents. -/
def outArr (c : Dev nD) : Buf (Elt F) ((c : Thread nD τ).loc main_v9) := (dats m 0 c).arrAt 2 (cfgA (F := F)).N

def W2 (c : Dev nD) : Valuation τ sig (Elt F) :=
  Function.update (StableHlo.after hostOps0 (V₀ m c)) (Proc.devRef .tc main_v9) (outArr m c)

/-- The unscoped buffers, with the four the region takes named. -/
theorem bufs_split (c : Dev nD) (W : (b : Ref sig .tc) → Buf (Elt F) ((c : Thread nD τ).loc b)) :
    (unscopedBufs c W : sProp 𝕄) = iprop((((c : Thread nD τ).loc main_v8) ↦{fullShare} W main_v8) ∗ (((c : Thread nD τ).loc main_v9) ↦{fullShare} W main_v9)
      ∗ (((c : Thread nD τ).loc main_c) ↦{fullShare} W main_c) ∗ (((c : Thread nD τ).loc main_c_0) ↦{fullShare} W main_c_0)
      ∗ bigSep restR fun b => ((c : Thread nD τ).loc b) ↦{fullShare} W b) := by
  unfold unscopedBufs
  rw [bigSep_erase h8, bigSep_erase h9, bigSep_erase hc, bigSep_erase hc0]
  rfl

theorem mem_S1 (b : Ref sig .tc) (hb : b ∈ insert main_v9 restR) : Proc.devRef (τ := τ) .tc b ∈ S1 := Finset.mem_map_of_mem _ hb
theorem sub1 (y : Ref sig .tc) (hy : y ∈ insert main_v9 restR) : ({Proc.devRef (τ := τ) .tc y} : Finset (DevRef τ sig)) ⊆ S1 :=
  Finset.singleton_subset_iff.mpr (mem_S1 y hy)
theorem sub2 (x y : Ref sig .tc) (hx : x ∈ insert main_v9 restR) (hy : y ∈ insert main_v9 restR) :
    ({Proc.devRef (τ := τ) .tc x, Proc.devRef (τ := τ) .tc y} : Finset (DevRef τ sig)) ⊆ S1 :=
  Finset.insert_subset (mem_S1 x hx) (sub1 y hy)
theorem sub3 (a b y : Ref sig .tc) (ha : a ∈ insert main_v9 restR) (hb : b ∈ insert main_v9 restR) (hy : y ∈ insert main_v9 restR) :
    ({Proc.devRef (τ := τ) .tc a, Proc.devRef (τ := τ) .tc b, Proc.devRef (τ := τ) .tc y} : Finset (DevRef τ sig)) ⊆ S1 :=
  Finset.insert_subset (mem_S1 a ha) (sub2 b y hb hy)

/-- Every buffer the lines after the region name is among them. -/
theorem hS1 : ∀ op ∈ (hostOps1 : List (HloOp τ sig (Elt F))), op.bufs ⊆ S1 := by
  intro op h
  simp only [List.mem_cons, List.mem_nil_iff, or_false] at h
  rcases h with rfl | rfl | rfl | rfl | rfl | rfl | rfl | rfl | rfl | rfl | rfl | rfl | rfl | rfl | rfl | rfl
  · exact sub2 main_v9 main_v10 (by decide) (by decide)
  · exact sub2 main_v10 main_v11 (by decide) (by decide)
  · exact sub1 main_cst (by decide)
  · exact sub3 main_v11 main_cst main_v12 (by decide) (by decide) (by decide)
  · exact sub2 main_v9 main_v13 (by decide) (by decide)
  · exact sub2 main_v13 main_v14 (by decide) (by decide)
  · exact sub1 main_cst_1 (by decide)
  · exact sub3 main_v14 main_cst_1 main_v15 (by decide) (by decide) (by decide)
  · exact sub2 main_v9 main_v16 (by decide) (by decide)
  · exact sub2 main_v16 main_v17 (by decide) (by decide)
  · exact sub1 main_cst_2 (by decide)
  · exact sub3 main_v17 main_cst_2 main_v18 (by decide) (by decide) (by decide)
  · exact sub3 main_v12 main_v15 main_v19 (by decide) (by decide) (by decide)
  · exact sub1 main_cst_3 (by decide)
  · exact sub3 main_cst_3 main_v18 main_v20 (by decide) (by decide) (by decide)
  · exact sub3 main_v19 main_v20 main_v21 (by decide) (by decide) (by decide)

theorem hfresh1 : ∀ op ∈ (hostOps1 : List (HloOp τ sig (Elt F))), op.fresh = ∅ := by
  intro _ h; (repeat (cases h with | head => rfl | tail _ h => ?_)); exact nomatch h

def seg1 : Pipeline.HostSeg (Name := ℕ) (U := UR sig nD τ) (pcfgs (F := F)) defs₀ 𝒱₀ L lv :=
  Pipeline.HostSeg.ofOps _ _ _ _ _ S1 hostOps1 hS1 hfresh1 (W2 m) R

/-- Those buffers held at the region's exit contents: the output array at its final contents, the rest as the region was entered. -/
theorem held_S1 (c : Dev nD) :
    (StableHlo.held (c : Thread nD τ) S1 (W2 m c) : sProp 𝕄)
      = iprop((((c : Thread nD τ).loc main_v9) ↦{fullShare} outArr m c)
          ∗ bigSep restR fun b => ((c : Thread nD τ).loc b) ↦{fullShare} V m c b) := by
  have e1 : W2 m c (Proc.devRef .tc main_v9) = outArr m c := by unfold W2; rw [Function.update_self]
  have e2 : ∀ b ∈ restR, W2 m c (Proc.devRef .tc b) = V m c b := fun b hb => by
    unfold W2
    rw [Function.update_of_ne (fun e => by
      have hbv : b = main_v9 := Proc.devRef_injective _ e
      exact h9r (hbv ▸ hb))]
  unfold StableHlo.held
  rw [bigSep_map, bigSep_insert h9r]
  show iprop((((c : Thread nD τ).loc main_v9) ↦{fullShare} W2 m c (Proc.devRef .tc main_v9))
    ∗ bigSep restR fun b => (((c : Thread nD τ).loc b) ↦{fullShare} W2 m c (Proc.devRef .tc b) : sProp 𝕄)) = _
  rw [e1, bigSep_congr (Ψ := fun b => (((c : Thread nD τ).loc b) ↦{fullShare} V m c b : sProp 𝕄)) (fun b hb => by rw [e2 b hb])]

/-! ## The region -/

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (W2 m c) ∗ R c)
  X c := iprop(emp)
  Y c := iprop(emp)
  Z c := bigSep restR fun b => ((c : Thread nD τ).loc b) ↦{fullShare} V m c b
  hentry c := by
    rw [show StableHlo.held (c : Thread nD τ) (Pipeline.ucRefs τ sig) (StableHlo.after hostOps0 (V₀ m c)) = unscopedBufs c (V m c) from (Pipeline.unscopedBufs_held c _).symm]
    rw [bufs_split, arrays_eq3,
      show Pipeline.prefHeld pre0 c (fun _ => fullShare) (adm (F := F) 0).1 = Tb (F := F) c from rfl, tb_eq,
      show V m c main_c = tbl (F := F) 0 from V_tbl m c 0, show V m c main_c_0 = tbl (F := F) 1 from V_tbl m c 1]
    iintro ⟨⟨⟨H8, H9, Hc, Hc0, Hrest⟩, HO⟩, -, -⟩
    ihave H8' := (pointsTo_share (PosShare.mem_left_op_right fullShare)).1 $$ H8
    icases H8' with ⟨H8l, H8r⟩
    imodintro
    isplitl [H8l H8r H9]
    · isplitl [H8l]; · iexact H8l
      isplitl [H8r]; · iexact H8r
      iexact H9
    isplitl [Hc Hc0]
    · isplitl [Hc]; · iexact Hc
      iexact Hc0
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl, PhiS_zero m c 0 _ rfl, scopedRest0_eq]
    iintro ⟨-, HT, ⟨%f, Hs⟩⟩
    isplitl [HT]; · iexact HT
    iexists f; simp only [scM, owns_whole]; iexact Hs
  hout c := by
    rw [show (dats m 0 c).Φ (Fin.last (cfgA (F := F)).N) = PhiS m c (cfgA (F := F)).N le_rfl from rfl,
      PhiS_pos m c _ _ (by rw [N_A]; decide), Pipeline.ownSems0_none, scopedRest0_eq]
    simp only [scM, owns_whole]
    iintro ⟨-, HS⟩
    isplitr; · iempintro
    isplitr; · iempintro
    iexists _; iexact HS
  hexit c := by
    rw [arrays_eq3, held_S1]
    iintro ⟨⟨-, -, H9⟩, HO, -, HZ⟩
    unfold outArr
    imodintro
    isplitr [HO]
    · isplitl [H9]; · iexact H9
      iexact HZ
    · unfold Pipeline.Dat.owesAt Pipeline.owesWithin
      icases HO with ⟨%W, -, HO⟩; iexists W; iexact HO

end Cert.Kernel.Hand
end
-- ==== Proof.BitsRun.lean ====
import proofs.«129605_j55473797595639_1_alg».proof.Proof.BitsSegs

set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main as the list of the three segments. -/
abbrev segs : List (Pipeline.Seg (pcfgs (F := F)) adm (dats m) () defs₀ 𝒱₀ L lv) := [.host (seg0 m), .region (reg0 m), .host (seg1 m)]

/-- What the buffers hold at the end: the sixteen lines after the region have run. -/
def W3 (c : Dev nD) : Valuation τ sig (Elt F) := StableHlo.after hostOps1 (W2 m c)

/-- No line writes an argument: each reaches the end as launched. -/
theorem W3_arg0 (c : Dev nD) : W3 m c (Proc.devRef .tc main_arg0) = m ((c : Thread nD τ).loc main_arg0) := by
  have h1 : W3 m c (Proc.devRef .tc main_arg0) = W2 m c (Proc.devRef .tc main_arg0) := by
    dsimp only [W3, hostOps1]; after_results
  rw [h1]; unfold W2; rw [Function.update_of_ne (by decide)]
  dsimp only [hostOps0]; after_results
theorem W3_arg1 (c : Dev nD) : W3 m c (Proc.devRef .tc main_arg1) = m ((c : Thread nD τ).loc main_arg1) := by
  have h1 : W3 m c (Proc.devRef .tc main_arg1) = W2 m c (Proc.devRef .tc main_arg1) := by
    dsimp only [W3, hostOps1]; after_results
  rw [h1]; unfold W2; rw [Function.update_of_ne (by decide)]
  dsimp only [hostOps0]; after_results

/-- The physical post: the result buffer at what the lines after the region leave in it; the two arguments as launched. -/
def QC : PUnit × MemSt nD τ sig (Elt F) → Prop := fun r =>
  ∀ c : Dev nD, r.2.mem ((c : Thread nD τ).loc main_v21) = W3 m c (Proc.devRef .tc main_v21)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, from any memory with zero counters: every weakly fair execution of @main on the TensorCores
    terminates, and every final state has the result buffer at the computed contents and both arguments unchanged. -/
theorem run_main : θ_run defs (onTc (τ := τ) (main (F := F))) ⟨m, fun _ => 0, ρ⟩ (QC m) :=
  Pipeline.θ_run_regions_kit (pcfgs (F := F)) adm (dats m) () (cellOf_inj adm) emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU _ : sProp 𝕄) ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) S1 (W3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v21) = W3 m c (Proc.devRef .tc main_v21)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all S1 (fun b => ((c : Thread nD τ).1, b)) (W3 m c) s') $$ [Hh HSI]
      · isplitl [Hh] <;> iassumption
      icases Hr with ⟨%hr, HSI⟩
      imodintro
      isplitr
      · ipureintro
        exact ⟨hr _ (mem_S1 main_v21 (by decide)), (hr _ (mem_S1 main_arg0 (by decide))).trans (W3_arg0 m c),
          (hr _ (mem_S1 main_arg1 (by decide))).trans (W3_arg1 m c)⟩
      iexact HSI)
    (hQ := fun _ h => h)

end Cert.Kernel.Hand
end
-- ==== Proof.HandTables.lean ====
import proofs.«129605_j55473797595639_1_alg».proof.Proof.Gen.KernelIdeal.Launch
import proofs.«129605_j55473797595639_1_alg».proof.Proof.Gen.KernelIdeal.Skeleton
import Idealize.ShloMosaic.Lib.Pipeline.Regions

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two prefetched tables and the pipeline pinned at their contents.

The pallas_call's index maps read two tables of three words, which @main itself writes as constants:
the first operand's feature matrix per pair, (0, 1, 0), and the second's, (0, 1, 1). Every word is 0 or 1,
so every block the maps name lies inside the stacked [2, 4096, 64] array: the tables' contents are admissible. -/

/-- The tables' contents, as @main's two constants write them. -/
def tbl : pre0.Contents (Elt F) := fun
  | 0 => fun i => lit0 (S3.rowMajor i)
  | 1 => fun i => lit1 (S3.rowMajor i)
  | ⟨_ + 2, h⟩ => absurd h (Nat.not_lt.2 (Nat.le_add_left _ _))

/-- Every word of the first table is 0 or 1; -/
theorem lit0_le (j : Fin 3) : (lit0 j).toNat ≤ 1 := by revert j; decide
/-- and of the second. -/
theorem lit1_le (j : Fin 3) : (lit1 j).toNat ≤ 1 := by revert j; decide

theorem bound_le (w : BitVec 32) (h : w.toNat ≤ 1) : (w.toNat + 1) * 1 ≤ 2 := by omega

/-- At these contents every block is inside its array: the leading index is a table word (at most 1, of 2 matrices),
    the column tile's row index is the tile's number (at most 7, of 8 tiles of 512 rows), the rest are zero. -/
theorem ok_tbl : ok0 (F := F) tbl := by
  refine ⟨fun i => ⟨fun a => ?_, Or.inl rfl⟩, fun i => ⟨fun a => ?_, Or.inl rfl⟩⟩
  · match a with
    | ⟨0, _⟩ => exact (show ((lit0 (S3.rowMajor _)).toNat + 1) * 1 ≤ 2 from bound_le _ (lit0_le _))
    | ⟨1, _⟩ => exact (show (0 + 1) * 4096 ≤ 4096 from by decide)
    | ⟨2, _⟩ => exact (show (0 + 1) * 64 ≤ 64 from by decide)
  · match a with
    | ⟨0, _⟩ => exact (show ((lit1 (S3.rowMajor _)).toNat + 1) * 1 ≤ 2 from bound_le _ (lit1_le _))
    | ⟨1, _⟩ =>
      have h : (i 1).val < 8 := (i 1).isLt
      exact (show ((BitVec.ofNat 32 (i 1).val).toNat + 1) * 512 ≤ 4096 from by rw [BitVec.toNat_ofNat]; omega)
    | ⟨2, _⟩ => exact (show (0 + 1) * 64 ≤ 64 from by decide)

/-- The admissible contents the region runs at, -/
abbrev adm : (p : Fin 1) → (pcfgs (F := F) p).Adm := fun _ => ⟨tbl, ok_tbl⟩
/-- and the pipeline at them: 3 pairs × 8 column tiles. -/
abbrev cfgA : Pipeline.Cfg sig Λ₀ := cfg0 (F := F) (adm 0)

theorem N_A : (cfgA (F := F)).N = 24 := N_0

end Cert.KernelIdeal.Hand
end
-- ==== Proof.HandBody.lean ====
import proofs.«129605_j55473797595639_1_alg».proof.Proof.Gen.KernelIdeal.Launch
import proofs.«129605_j55473797595639_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body at one grid point, as a transformer of what its four buffers hold.

With the scratch accumulator holding `s`, the resident operand's block `x0` and the column tile's block `x1`:
at the first column tile the accumulator is reset to the zero splat before the tile's total is added;
at every tile the accumulator becomes `step` of it; at the last tile the accumulator is copied into the
output block. Nothing else is written. -/

/-- The first column tile of a pair (`j = 0`), as the body tests it. -/
abbrev cond1 (i : grid0.Coords) : Prop := (Scalar.cmpi .ne (Scalar.extui (Scalar.cmpi .eq (BitVec.ofNat 32 (i 1).val) 0#32)) 0#32) = 1#1
/-- The last column tile of a pair (`j = 7`), as the body tests it. -/
abbrev cond2 (i : grid0.Coords) : Prop := k0_cond2 i = 1#1

/-- One step of the accumulation: the tile's total (inside `k0_pay1`) added to the accumulator `s`. -/
def step (x0 : Vec F S1x4096x64 .f32) (x1 : Vec F S1x512x64 .f32) (s : Vec F S1x1 .f32) : Vec F S1x1 .f32 :=
  k0_pay1 (k0_pay4 x0 x1) (k0_pay5 x0 x1) (k0_pay6 x0 x1) s

theorem hz2 : (![0, 0] : Fin 2 → Nat) = fun _ => 0 := funext fun a => match a with | ⟨0, _⟩ => rfl | ⟨1, _⟩ => rfl
theorem hz3 : (![0, 0, 0] : Fin 3 → Nat) = fun _ => 0 := funext fun a => match a with | ⟨0, _⟩ => rfl | ⟨1, _⟩ => rfl | ⟨2, _⟩ => rfl

/-- A store through the whole buffer, last, leaves its payload, whatever was stored before. -/
theorem read_store_whole {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

/-- A middle tile: the accumulator takes one step; the output block is untouched. -/
theorem run_mid (c : Dev nD) (i : grid0.Coords) (arg2 : Memref sig .tc .smem S3 .i32) (harg2 : arg2.IsWhole) (arg3 : Memref sig .tc .smem S3 .i32) (harg3 : arg3.IsWhole)
    (arg4 : Memref sig .tc .vmem S1x4096x64 .f32) (harg4 : arg4.IsWhole) (arg5 : Memref sig .tc .vmem S1x512x64 .f32) (harg5 : arg5.IsWhole)
    (arg6 : Memref sig .tc .vmem S1x1x1 .f32) (harg6 : arg6.IsWhole) (arg7 : Memref sig .tc .vmem S1x1 .f32) (harg7 : arg7.IsWhole)
    (hc1 : ¬cond1 i) (hc2 : ¬cond2 i)
    (x0 : Vec F S1x4096x64 .f32) (x1 : Vec F S1x512x64 .f32) (xo : Vec F S1x1x1 .f32) (s : Vec F S1x1 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (step x0 x1 s)) -∗ K ⟨⟩))
      ⊢ wp frame (wpE (defs₀ (F := F)) Variants.none c none) E (cc0__pair_mmd_kernel i arg2 harg2 arg3 harg3 arg4 harg4 arg5 harg5 arg6 harg6 arg7 harg7) K := by
  simp only [cc0__pair_mmd_kernel_eq_skeleton]; unfold cc0__pair_mmd_kernel_skel
  simp only [k0_part1_eq_skeleton]; unfold k0_part1_skel
  unfold owns
  iintro ⟨⟨%f4, %hf4, H4⟩, ⟨%f5, %hf5, H5⟩, ⟨%f6, %hf6, H6⟩, ⟨%f7, %hf7, H7⟩, Hk⟩
  obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; (· iexact H7)
  ipureintro
  rw [read_store_whole _ _ hz2]
  dsimp only
  simp only [View.readAt_eq_ld, harg4.read_unread, harg5.read_unread, harg7.read_unread,
    View.ld_unit_zero (S := S1x4096x64) hz3, View.ld_unit_zero (S := S1x512x64) hz3, View.ld_unit_zero (S := S1x1) hz2]
  rfl

/-- The first tile: the accumulator is reset to the zero splat (`k0_pay3`), then takes one step. -/
theorem run_first (c : Dev nD) (i : grid0.Coords) (arg2 : Memref sig .tc .smem S3 .i32) (harg2 : arg2.IsWhole) (arg3 : Memref sig .tc .smem S3 .i32) (harg3 : arg3.IsWhole)
    (arg4 : Memref sig .tc .vmem S1x4096x64 .f32) (harg4 : arg4.IsWhole) (arg5 : Memref sig .tc .vmem S1x512x64 .f32) (harg5 : arg5.IsWhole)
    (arg6 : Memref sig .tc .vmem S1x1x1 .f32) (harg6 : arg6.IsWhole) (arg7 : Memref sig .tc .vmem S1x1 .f32) (harg7 : arg7.IsWhole)
    (hc1 : cond1 i) (hc2 : ¬cond2 i)
    (x0 : Vec F S1x4096x64 .f32) (x1 : Vec F S1x512x64 .f32) (xo : Vec F S1x1x1 .f32) (s : Vec F S1x1 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare xo ∗ owns (c : Thread nD τ) arg7 fullShare (step x0 x1 (k0_pay3 (F := F)))) -∗ K ⟨⟩))
      ⊢ wp frame (wpE (defs₀ (F := F)) Variants.none c none) E (cc0__pair_mmd_kernel i arg2 harg2 arg3 harg3 arg4 harg4 arg5 harg5 arg6 harg6 arg7 harg7) K := by
  simp only [cc0__pair_mmd_kernel_eq_skeleton]; unfold cc0__pair_mmd_kernel_skel
  simp only [k0_part1_eq_skeleton]; unfold k0_part1_skel
  unfold owns
  iintro ⟨⟨%f4, %hf4, H4⟩, ⟨%f5, %hf5, H5⟩, ⟨%f6, %hf6, H6⟩, ⟨%f7, %hf7, H7⟩, Hk⟩
  obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; (· iexact H7)
  ipureintro
  rw [read_store_whole _ _ hz2]
  dsimp only
  sl_unfold_words
  simp only [View.readAt_eq_ld, harg4.read_unread, harg5.read_unread,
    View.ld_unit_zero (S := S1x4096x64) hz3, View.ld_unit_zero (S := S1x512x64) hz3]
  exact congrArg (k0_pay1 (k0_pay4 x0 x1) (k0_pay5 x0 x1) (k0_pay6 x0 x1))
    (View.readCov_cons_toLoadRect (Val := Elt F) arg7.view (Rect.unit ![0, 0] S1x1.size inb_S1x1_S1x1_0_0) (k0_pay3 (F := F)) [])

/-- The last tile: the accumulator takes one step and is copied into the output block (`k0_pay2`). -/
theorem run_last (c : Dev nD) (i : grid0.Coords) (arg2 : Memref sig .tc .smem S3 .i32) (harg2 : arg2.IsWhole) (arg3 : Memref sig .tc .smem S3 .i32) (harg3 : arg3.IsWhole)
    (arg4 : Memref sig .tc .vmem S1x4096x64 .f32) (harg4 : arg4.IsWhole) (arg5 : Memref sig .tc .vmem S1x512x64 .f32) (harg5 : arg5.IsWhole)
    (arg6 : Memref sig .tc .vmem S1x1x1 .f32) (harg6 : arg6.IsWhole) (arg7 : Memref sig .tc .vmem S1x1 .f32) (harg7 : arg7.IsWhole)
    (hc1 : ¬cond1 i) (hc2 : cond2 i)
    (x0 : Vec F S1x4096x64 .f32) (x1 : Vec F S1x512x64 .f32) (xo : Vec F S1x1x1 .f32) (s : Vec F S1x1 .f32) (E : Set ℕ) (K : PUnit → sProp 𝕄) :
    iprop(owns (c : Thread nD τ) arg4 fullShare x0 ∗ owns (c : Thread nD τ) arg5 fullShare x1 ∗ owns (c : Thread nD τ) arg6 fullShare xo ∗ owns (c : Thread nD τ) arg7 fullShare s
        ∗ (iprop(owns (c : Thread nD τ) arg4 fullShare x0 ∗ owns (c : Thread nD τ) arg5 fullShare x1 ∗ owns (c : Thread nD τ) arg6 fullShare (k0_pay2 (step x0 x1 s)) ∗ owns (c : Thread nD τ) arg7 fullShare (step x0 x1 s)) -∗ K ⟨⟩))
      ⊢ wp frame (wpE (defs₀ (F := F)) Variants.none c none) E (cc0__pair_mmd_kernel i arg2 harg2 arg3 harg3 arg4 harg4 arg5 harg5 arg6 harg6 arg7 harg7) K := by
  simp only [cc0__pair_mmd_kernel_eq_skeleton]; unfold cc0__pair_mmd_kernel_skel
  simp only [k0_part1_eq_skeleton]; unfold k0_part1_skel
  unfold owns
  iintro ⟨⟨%f4, %hf4, H4⟩, ⟨%f5, %hf5, H5⟩, ⟨%f6, %hf6, H6⟩, ⟨%f7, %hf7, H7⟩, Hk⟩
  obtain rfl := harg4.eq_unread hf4; obtain rfl := harg5.eq_unread hf5; obtain rfl := harg6.eq_unread hf6; obtain rfl := harg7.eq_unread hf7
  sl_exec (disch := first | exact hc1 | exact hc2)
  sl_step
  iapply Hk
  isplitl [H4]; · iexists _; isplitr; · ipureintro; exact hf4
                  iexact H4
  isplitl [H5]; · iexists _; isplitr; · ipureintro; exact hf5
                  iexact H5
  isplitl [H6]
  · iexists _; isplitr; swap; (· iexact H6)
    ipureintro
    rw [read_store_whole _ _ hz3]
    sl_unfold_words
    dsimp only
    rw [View.readCov_cons_toLoadRect]
    simp only [View.readAt_eq_ld, harg4.read_unread, harg5.read_unread, harg7.read_unread,
      View.ld_unit_zero (S := S1x4096x64) hz3, View.ld_unit_zero (S := S1x512x64) hz3, View.ld_unit_zero (S := S1x1) hz2]
    rfl
  iexists _; isplitr; swap; (· iexact H7)
  ipureintro
  sl_unfold_words
  rw [read_store_whole _ _ hz2]
  dsimp only
  simp only [View.readAt_eq_ld, harg4.read_unread, harg5.read_unread, harg7.read_unread,
    View.ld_unit_zero (S := S1x4096x64) hz3, View.ld_unit_zero (S := S1x512x64) hz3, View.ld_unit_zero (S := S1x1) hz2]
  rfl

end Cert.KernelIdeal.Hand
end
-- ==== Proof.HandData.lean ====
import proofs.«129605_j55473797595639_1_alg».proof.Proof.HandTables
import proofs.«129605_j55473797595639_1_alg».proof.Proof.HandBody
import Idealize.ShloMosaic.Lib.Pipeline.Kit

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## @main up to the region -/

/-- Core `c`'s buffers at launch, as the host operations' valuation; -/
abbrev V₀ (c : Dev nD) : Valuation τ sig (Elt F) := fun b => m ((c : Dev nD), b)
/-- and when the region is entered: the eleven operations before the call have run. -/
abbrev V (c : Dev nD) (b : Ref sig .tc) : Buf (Elt F) ((c : Thread nD τ).loc b) := StableHlo.after hostOps0 (V₀ m c) b

/-- The two tables hold @main's constants when the region is entered. -/
theorem V_tbl (c : Dev nD) (k : Fin pre0.K) : V m c (pre0.ref k) = tbl (F := F) k := by
  match k with
  | ⟨0, _⟩ => dsimp only [V, hostOps0]; after_results; rfl
  | ⟨1, _⟩ => dsimp only [V, hostOps0]; after_results; rfl

/-! ## The grid's points -/

/-- The first column tile of each pair: the points 0, 8, 16. -/
theorem hcond1 : ∀ t : Fin (cfgA (F := F)).N, cond1 (grid0.coords t) ↔ t.val % 8 = 0 :=
  (by decide +kernel : ∀ t : Fin grid0.N, cond1 (grid0.coords t) ↔ t.val % 8 = 0)
/-- The last column tile of each pair: the points 7, 15, 23. -/
theorem hcond2 : ∀ t : Fin (cfgA (F := F)).N, cond2 (grid0.coords t) ↔ t.val % 8 = 7 :=
  (by decide +kernel : ∀ t : Fin grid0.N, cond2 (grid0.coords t) ↔ t.val % 8 = 7)

/-- The two input windows are never idle. -/
theorem live0 : ∀ i, (cfgA (F := F)).idle 0 i = false := fun _ => rfl
theorem live1 : ∀ i, (cfgA (F := F)).idle 1 i = false := fun _ => rfl
/-- The output window is idle except at a pair's last tile, -/
theorem idle2 : ∀ t : Fin (cfgA (F := F)).N, (cfgA (F := F)).idle 2 (grid0.coords t) = true ↔ ¬ t.val % 8 = 7 :=
  (by decide +kernel : ∀ t : Fin grid0.N, idle0 2 (grid0.coords t) = true ↔ ¬ t.val % 8 = 7)
/-- which is also where its block is written back. -/
theorem flush2 : ∀ t : Fin (cfgA (F := F)).N, ((cfgA (F := F)).win 2).flush t = true ↔ t.val % 8 = 7 :=
  (by decide +kernel : ∀ t : Fin grid0.N, Pipeline.Window.flushOf grid0 true cc0_transform_2 t = true ↔ t.val % 8 = 7)

/-! ## The windows' blocks and the accumulation -/

/-- Window `w`'s block at point `t`, read off its array as the region finds it. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-- The resident operand's block and the column tile's block at point `t`, as the body loads them. -/
abbrev blkA (c : Dev nD) (t : Fin (cfgA (F := F)).N) : Vec F S1x4096x64 .f32 := iblk m c 0 t
abbrev blkB (c : Dev nD) (t : Fin (cfgA (F := F)).N) : Vec F S1x512x64 .f32 := iblk m c 1 t

/-- THE ACCUMULATION. What the scratch holds after the body at position `n`: one step from the zero splat at a pair's
    first tile, one step from what the point before left at every other. -/
def accAt (c : Dev nD) : (n : ℕ) → n < (cfgA (F := F)).N → Vec F S1x1 .f32
  | 0, hn => step (blkA m c ⟨0, hn⟩) (blkB m c ⟨0, hn⟩) (k0_pay3 (F := F))
  | n + 1, hn => step (blkA m c ⟨n + 1, hn⟩) (blkB m c ⟨n + 1, hn⟩)
      (if (n + 1) % 8 = 0 then k0_pay3 (F := F) else accAt c n (Nat.lt_of_succ_lt hn))

theorem accAt_first (c : Dev nD) (t : Fin (cfgA (F := F)).N) (h : t.val % 8 = 0) :
    accAt m c t.val t.isLt = step (blkA m c t) (blkB m c t) (k0_pay3 (F := F)) := by
  obtain ⟨n, hn⟩ := t
  cases n with
  | zero => rfl
  | succ n => exact congrArg (step _ _) (if_pos h)

theorem accAt_next (c : Dev nD) (t : Fin (cfgA (F := F)).N) (h : ¬ t.val % 8 = 0) :
    accAt m c t.val t.isLt = step (blkA m c t) (blkB m c t) (accAt m c (t.val - 1) (Nat.lt_of_le_of_lt (Nat.sub_le _ _) t.isLt)) := by
  obtain ⟨n, hn⟩ := t
  cases n with
  | zero => exact absurd (Nat.zero_mod 8) h
  | succ n => exact congrArg (step _ _) (if_neg h)

/-! ## The region's invariant and proof data -/

/-- The two tables, which the region holds whole while it runs. -/
abbrev Tb (c : Dev nD) : sProp 𝕄 := Pipeline.prefHeld pre0 c (fun _ => fullShare) (tbl (F := F))
/-- The scratch accumulator as a memref. -/
abbrev scM : Memref sig .tc .vmem S1x1 .f32 := Memref.whole cc0_scratch0

/-- The invariant before position `n`: the tables; the scratch at anything before the first point, afterwards at what the
    point before left in it. -/
def PhiS (c : Dev nD) : (n : ℕ) → n ≤ (cfgA (F := F)).N → sProp 𝕄
  | 0, _ => iprop(Tb c ∗ ∃ d, owns (c : Thread nD τ) scM fullShare d)
  | n + 1, hn => iprop(Tb c ∗ owns (c : Thread nD τ) scM fullShare (accAt m c n hn))

theorem PhiS_zero (c : Dev nD) (n : ℕ) (h : n ≤ (cfgA (F := F)).N) (hz : n = 0) :
    PhiS m c n h = iprop(Tb c ∗ ∃ d, owns (c : Thread nD τ) scM fullShare d) := by subst hz; rfl
theorem PhiS_succ (c : Dev nD) (n : ℕ) (hn : n < (cfgA (F := F)).N) :
    PhiS m c (n + 1) hn = iprop(Tb c ∗ owns (c : Thread nD τ) scM fullShare (accAt m c n hn)) := rfl
theorem PhiS_pos (c : Dev nD) (n : ℕ) (h : n ≤ (cfgA (F := F)).N) (hz : n ≠ 0) :
    PhiS m c n h = iprop(Tb c ∗ owns (c : Thread nD τ) scM fullShare (accAt m c (n - 1) (by omega))) := by
  cases n with
  | zero => exact absurd rfl hz
  | succ n => rfl

/-- The proof data on core `c`: the arrays as the region finds them; after the body each input's buffer at its block and
    the output's at the accumulator (where it is stored at all); the stacked array shared half and half between the two
    input windows that read it; nothing owed. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => k0_pay2 (accAt m c t.val t.isLt)
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin (cfgA (F := F)).W) : (dats m 0 c).A w = V m c (Pipeline.arrRef spec0 w) := by
  dsimp only [dats]
theorem PhiS_castSucc (c : Dev nD) (t : Fin (cfgA (F := F)).N) :
    (dats m 0 c).Φ t.castSucc = PhiS m c t.val (Nat.le_of_lt t.isLt) := by
  dsimp only [dats]; simp only [Fin.coe_castSucc]
theorem after0 (c : Dev nD) (t : Fin (cfgA (F := F)).N) : (dats m 0 c).after 0 t = iblk m c 0 t := by dsimp only [dats]; rfl
theorem after1 (c : Dev nD) (t : Fin (cfgA (F := F)).N) : (dats m 0 c).after 1 t = iblk m c 1 t := by dsimp only [dats]; rfl
theorem after2 (c : Dev nD) (t : Fin (cfgA (F := F)).N) : (dats m 0 c).after 2 t = k0_pay2 (accAt m c t.val t.isLt) := by dsimp only [dats]; rfl

/-- Each input's current staging buffer holds its block at every point, fetched there or not. -/
theorem before0 (c : Dev nD) (t : Fin (cfgA (F := F)).N) (d) : (dats m 0 c).before 0 t d = iblk m c 0 t :=
  ((dats m 0 c).before_in_eq_fetched 0 rfl live0 (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin (cfgA (F := F)).N) (d) : (dats m 0 c).before 1 t d = iblk m c 1 t :=
  ((dats m 0 c).before_in_eq_fetched 1 rfl live1 (fun _ _ _ => rfl)
      (fun t => by rw [after1]; unfold Dat.blockOf iblk; rw [A_eq]; try rfl) t d).trans
    (by unfold Dat.fetched Dat.blockOf iblk; rw [A_eq]; try rfl)

/-! ## The body obligation -/

/-- Each window's current staging memref at point `t`, as the pipeline passes it, and its wholeness. -/
abbrev ms0 (t : Fin (cfgA (F := F)).N) : Memref sig .tc .vmem S1x4096x64 .f32 := spec0_0.stage ((cfgA (F := F)).slots t 0)
abbrev hs0 (t : Fin (cfgA (F := F)).N) : (ms0 (F := F) t).IsWhole := hstage0_0 (((cfgA (F := F)).slots t 0).cast nbuf0_0)
abbrev ms1 (t : Fin (cfgA (F := F)).N) : Memref sig .tc .vmem S1x512x64 .f32 := spec0_1.stage ((cfgA (F := F)).slots t 1)
abbrev hs1 (t : Fin (cfgA (F := F)).N) : (ms1 (F := F) t).IsWhole := hstage0_1 (((cfgA (F := F)).slots t 1).cast nbuf0_1)
abbrev ms2 (t : Fin (cfgA (F := F)).N) : Memref sig .tc .vmem S1x1x1 .f32 := spec0_2.stage ((cfgA (F := F)).slots t 2)
abbrev hs2 (t : Fin (cfgA (F := F)).N) : (ms2 (F := F) t).IsWhole := hstage0_2 (((cfgA (F := F)).slots t 2).cast nbuf0_2)

/-- The kernel body at point `t`, on what the pipeline calls it with. -/
abbrev bodyAt (t : Fin (cfgA (F := F)).N) : Prog (TpuEff nD τ sig (Elt F) Λ₀ .tc) PUnit :=
  cc0__pair_mmd_kernel (grid0.coords t) (Memref.whole main_c) (Memref.isWhole_whole _) (Memref.whole main_c_0) (Memref.isWhole_whole _)
    (ms0 t) (hs0 t) (ms1 t) (hs1 t) (ms2 t) (hs2 t) (Memref.whole cc0_scratch0) (Memref.isWhole_whole _)

/-- What the body is called with at point `t`, the windows one by one, -/
def bodyPre (c : Dev nD) (t : Fin (cfgA (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin (cfgA (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point: the inputs' buffers hold their blocks; the point is a pair's first tile, a middle one or its
    last, and that case's run applies; the invariant hands the body the scratch at what the point before left (at anything
    before the first point) and takes it back at this point's value. -/
theorem sound_body (c : Dev nD) (t : Fin (cfgA (F := F)).N) :
    bodyPre m c t ⊢ wp frame (wpE (defs₀ (F := F)) Variants.none c none) Set.univ (bodyAt t) (fun _ => bodyPost m c t) := by
  unfold bodyPre bodyPost bodyAt
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [live0]; rfl, after0]
  rw [show (dats m 0 c).leavesExact 1 t = owns (c : Thread nD τ) (ms1 t) fullShare ((dats m 0 c).after 1 t) from by
    unfold Dat.leavesExact; rw [live1]; rfl, after1]
  have hN : t.val < 24 := lt_of_lt_of_eq t.isLt (N_A (F := F))
  by_cases h7 : t.val % 8 = 7
  · have h0 : ¬ t.val % 8 = 0 := by omega
    have hz : t.val ≠ 0 := by omega
    have hi2 : (cfgA (F := F)).idle 2 (grid0.coords t) = false := Bool.eq_false_iff.mpr fun h => (idle2 t).mp h h7
    rw [show (dats m 0 c).leavesExact 2 t = owns (c : Thread nD τ) (ms2 t) fullShare ((dats m 0 c).after 2 t) from by
      unfold Dat.leavesExact; rw [hi2]; rfl, after2]
    rw [accAt_next m c t h0, PhiS_castSucc m c t, PhiS_pos m c _ _ hz]
    iintro ⟨⟨HT, HS⟩, Ho, ⟨%d0, H0⟩, ⟨%d1, H1⟩, ⟨%d2, H2⟩⟩
    iapply (run_last c (grid0.coords t) _ _ _ _ _ (hs0 t) _ (hs1 t) _ (hs2 t) _ (Memref.isWhole_whole _)
      (fun h => h0 ((hcond1 t).mp h)) ((hcond2 t).mpr h7) (blkA m c t) (blkB m c t) _ _ Set.univ _)
    isplitl [H0]; · iexact H0
    isplitl [H1]; · iexact H1
    isplitl [H2]; · iexact H2
    isplitl [HS]; · iexact HS
    iintro ⟨H0, H1, H2, HS⟩
    isplitl [HT HS]
    · isplitl [HT]; · iexact HT
      iexact HS
    isplitl [Ho]; · iexact Ho
    isplitl [H0]; · iexact H0
    isplitl [H1]; · iexact H1
    iexact H2
  · have hi2 : (cfgA (F := F)).idle 2 (grid0.coords t) = true := (idle2 t).mpr h7
    have hf2 : ((cfgA (F := F)).win 2).flush t = false := Bool.eq_false_iff.mpr fun h => h7 ((flush2 t).mp h)
    rw [Dat.leavesExact_idle (dats m 0 c) 2 t hi2 hf2]
    by_cases h0 : t.val % 8 = 0
    · rw [accAt_first m c t h0]
      have key : ∀ s : Vec F S1x1 .f32,
          iprop(Tb c ∗ owns (c : Thread nD τ) scM fullShare s ∗ (dats m 0 c).owesAt () t.castSucc
              ∗ owns (c : Thread nD τ) (ms0 t) fullShare (iblk m c 0 t) ∗ owns (c : Thread nD τ) (ms1 t) fullShare (iblk m c 1 t)
              ∗ (∃ d, owns (c : Thread nD τ) (ms2 t) fullShare ((dats m 0 c).before 2 t d)))
            ⊢ wp frame (wpE (defs₀ (F := F)) Variants.none c none) Set.univ (bodyAt t) (fun _ =>
                iprop(iprop(Tb c ∗ owns (c : Thread nD τ) scM fullShare (step (blkA m c t) (blkB m c t) (k0_pay3 (F := F))))
                  ∗ (dats m 0 c).owesAt () t.castSucc ∗ owns (c : Thread nD τ) (ms0 t) fullShare (iblk m c 0 t)
                  ∗ owns (c : Thread nD τ) (ms1 t) fullShare (iblk m c 1 t)
                  ∗ ∃ d, owns (c : Thread nD τ) (ms2 t) fullShare ((dats m 0 c).before 2 t d))) := fun s => by
        iintro ⟨HT, HS, Ho, H0, H1, ⟨%d2, H2⟩⟩
        iapply (run_first c (grid0.coords t) _ _ _ _ _ (hs0 t) _ (hs1 t) _ (hs2 t) _ (Memref.isWhole_whole _)
          ((hcond1 t).mpr h0) (fun h => h7 ((hcond2 t).mp h)) (blkA m c t) (blkB m c t) _ s Set.univ _)
        isplitl [H0]; · iexact H0
        isplitl [H1]; · iexact H1
        isplitl [H2]; · iexact H2
        isplitl [HS]; · iexact HS
        iintro ⟨H0, H1, H2, HS⟩
        isplitl [HT HS]
        · isplitl [HT]; · iexact HT
          iexact HS
        isplitl [Ho]; · iexact Ho
        isplitl [H0]; · iexact H0
        isplitl [H1]; · iexact H1
        iexists _; iexact H2
      by_cases hz : t.val = 0
      · rw [PhiS_castSucc m c t, PhiS_zero m c _ _ hz]
        iintro ⟨⟨HT, ⟨%s, HS⟩⟩, Ho, ⟨%d0, H0⟩, ⟨%d1, H1⟩, H2⟩
        iapply (key s)
        isplitl [HT]; · iexact HT
        isplitl [HS]; · iexact HS
        isplitl [Ho]; · iexact Ho
        isplitl [H0]; · iexact H0
        isplitl [H1]; · iexact H1
        iexact H2
      · rw [PhiS_castSucc m c t, PhiS_pos m c _ _ hz]
        iintro ⟨⟨HT, HS⟩, Ho, ⟨%d0, H0⟩, ⟨%d1, H1⟩, H2⟩
        iapply (key _)
        isplitl [HT]; · iexact HT
        isplitl [HS]; · iexact HS
        isplitl [Ho]; · iexact Ho
        isplitl [H0]; · iexact H0
        isplitl [H1]; · iexact H1
        iexact H2
    · have hz : t.val ≠ 0 := fun h => h0 (by rw [h])
      rw [accAt_next m c t h0, PhiS_castSucc m c t, PhiS_pos m c _ _ hz]
      iintro ⟨⟨HT, HS⟩, Ho, ⟨%d0, H0⟩, ⟨%d1, H1⟩, ⟨%d2, H2⟩⟩
      iapply (run_mid c (grid0.coords t) _ _ _ _ _ (hs0 t) _ (hs1 t) _ (hs2 t) _ (Memref.isWhole_whole _)
        (fun h => h0 ((hcond1 t).mp h)) (fun h => h7 ((hcond2 t).mp h)) (blkA m c t) (blkB m c t) _ _ Set.univ _)
      isplitl [H0]; · iexact H0
      isplitl [H1]; · iexact H1
      isplitl [H2]; · iexact H2
      isplitl [HS]; · iexact HS
      iintro ⟨H0, H1, H2, HS⟩
      isplitl [HT HS]
      · isplitl [HT]; · iexact HT
        iexact HS
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand
end
-- ==== Proof.HandSegs.lean ====
import proofs.«129605_j55473797595639_1_alg».proof.Proof.HandData
import Idealize.ShloMosaic.Lib.Pipeline.Regions
import Idealize.ShloMosaic.Lib.Pipeline.FrameSuffix
import Idealize.ShloMosaic.Lib.Pipeline.Kit
import Idealize.ShloMosaic.Lib.StableHlo.Run

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The launch: @main as three segments — the host operations before the call, the region, the host operations after it.

The region is entered from every unscoped buffer held whole. It takes the stacked feature array — read by BOTH input
windows, so held half and half —, the output array and the two tables; everything else bypasses it. It is left with
the output array at its final contents, and the lines after it run within that array and the bypassing buffers. -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through the segments: the core's `owes`, at nothing. -/
abbrev R (c : Dev nD) : sProp 𝕄 := iprop(∃ W, owes (c : Thread nD τ) (0 : CellTallies nD τ sig Unit) W)

/-- The TensorCore's unscoped references; -/
abbrev U0 : Finset (Ref sig .tc) := Finset.univ.filter fun b : Ref sig .tc => ¬ b.isScoped
/-- all of them but the stacked array, the output array and the two tables: what bypasses the region. -/
abbrev restR : Finset (Ref sig .tc) := (((U0.erase main_v8).erase main_v9).erase main_c).erase main_c_0

theorem h8 : main_v8 ∈ U0 := by decide
theorem h9 : main_v9 ∈ U0.erase main_v8 := by decide
theorem hc : main_c ∈ (U0.erase main_v8).erase main_v9 := by decide
theorem hc0 : main_c_0 ∈ ((U0.erase main_v8).erase main_v9).erase main_c := by decide
theorem h9r : main_v9 ∉ restR := by decide

/-- The pipeline's arrays, one by one: the stacked array at the two halves of the full share, the output array whole. -/
theorem arrays_eq3 (c : Dev nD) (G : (w : Fin (cfgA (F := F)).W) → Buf (Elt F) (((cfgA (F := F)).win w).arr.view.loc (c : Thread nD τ))) :
    ((dats m 0 c).arrays G : sProp 𝕄) = iprop((((c : Thread nD τ).loc main_v8) ↦{fullShare.left} G 0) ∗ (((c : Thread nD τ).loc main_v8) ↦{fullShare.right} G 1)
      ∗ (((c : Thread nD τ).loc main_v9) ↦{fullShare} G 2)) := by
  unfold Dat.arrays; rw [bigSep_W0]
  rw [(arr_whole0 0).set_eq_univ, (arr_whole0 2).set_eq_univ]
  rfl

/-- The two tables, one by one. -/
theorem tb_eq (c : Dev nD) : (Tb (F := F) c : sProp 𝕄) = iprop((((c : Thread nD τ).loc main_c) ↦{fullShare} tbl (F := F) 0) ∗ (((c : Thread nD τ).loc main_c_0) ↦{fullShare} tbl (F := F) 1)) := by
  unfold Tb Pipeline.prefHeld
  rw [bigSep_univ_eq_bigSepL [(0 : Fin 2), (1 : Fin 2)] (by decide) (by decide)]
  rfl

/-! ## The host operations before the region -/

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-! ## The host operations after the region -/

/-- The buffers the lines after the region run within: the output array and what bypassed the region. -/
abbrev S1 : Finset (DevRef τ sig) := (insert main_v9 restR).map ⟨Proc.devRef (sig := sig) .tc, Proc.devRef_injective _⟩

/-- Core `c`'s buffers when the region is left: as it was entered, but the output array at its final contents. -/
def outArr (c : Dev nD) : Buf (Elt F) ((c : Thread nD τ).loc main_v9) := (dats m 0 c).arrAt 2 (cfgA (F := F)).N

def W2 (c : Dev nD) : Valuation τ sig (Elt F) :=
  Function.update (StableHlo.after hostOps0 (V₀ m c)) (Proc.devRef .tc main_v9) (outArr m c)

/-- The unscoped buffers, with the four the region takes named. -/
theorem bufs_split (c : Dev nD) (W : (b : Ref sig .tc) → Buf (Elt F) ((c : Thread nD τ).loc b)) :
    (unscopedBufs c W : sProp 𝕄) = iprop((((c : Thread nD τ).loc main_v8) ↦{fullShare} W main_v8) ∗ (((c : Thread nD τ).loc main_v9) ↦{fullShare} W main_v9)
      ∗ (((c : Thread nD τ).loc main_c) ↦{fullShare} W main_c) ∗ (((c : Thread nD τ).loc main_c_0) ↦{fullShare} W main_c_0)
      ∗ bigSep restR fun b => ((c : Thread nD τ).loc b) ↦{fullShare} W b) := by
  unfold unscopedBufs
  rw [bigSep_erase h8, bigSep_erase h9, bigSep_erase hc, bigSep_erase hc0]
  rfl

theorem mem_S1 (b : Ref sig .tc) (hb : b ∈ insert main_v9 restR) : Proc.devRef (τ := τ) .tc b ∈ S1 := Finset.mem_map_of_mem _ hb
theorem sub1 (y : Ref sig .tc) (hy : y ∈ insert main_v9 restR) : ({Proc.devRef (τ := τ) .tc y} : Finset (DevRef τ sig)) ⊆ S1 :=
  Finset.singleton_subset_iff.mpr (mem_S1 y hy)
theorem sub2 (x y : Ref sig .tc) (hx : x ∈ insert main_v9 restR) (hy : y ∈ insert main_v9 restR) :
    ({Proc.devRef (τ := τ) .tc x, Proc.devRef (τ := τ) .tc y} : Finset (DevRef τ sig)) ⊆ S1 :=
  Finset.insert_subset (mem_S1 x hx) (sub1 y hy)
theorem sub3 (a b y : Ref sig .tc) (ha : a ∈ insert main_v9 restR) (hb : b ∈ insert main_v9 restR) (hy : y ∈ insert main_v9 restR) :
    ({Proc.devRef (τ := τ) .tc a, Proc.devRef (τ := τ) .tc b, Proc.devRef (τ := τ) .tc y} : Finset (DevRef τ sig)) ⊆ S1 :=
  Finset.insert_subset (mem_S1 a ha) (sub2 b y hb hy)

/-- Every buffer the lines after the region name is among them. -/
theorem hS1 : ∀ op ∈ (hostOps1 : List (HloOp τ sig (Elt F))), op.bufs ⊆ S1 := by
  intro op h
  simp only [List.mem_cons, List.mem_nil_iff, or_false] at h
  rcases h with rfl | rfl | rfl | rfl | rfl | rfl | rfl | rfl | rfl | rfl | rfl | rfl | rfl | rfl | rfl | rfl
  · exact sub2 main_v9 main_v10 (by decide) (by decide)
  · exact sub2 main_v10 main_v11 (by decide) (by decide)
  · exact sub1 main_cst (by decide)
  · exact sub3 main_v11 main_cst main_v12 (by decide) (by decide) (by decide)
  · exact sub2 main_v9 main_v13 (by decide) (by decide)
  · exact sub2 main_v13 main_v14 (by decide) (by decide)
  · exact sub1 main_cst_1 (by decide)
  · exact sub3 main_v14 main_cst_1 main_v15 (by decide) (by decide) (by decide)
  · exact sub2 main_v9 main_v16 (by decide) (by decide)
  · exact sub2 main_v16 main_v17 (by decide) (by decide)
  · exact sub1 main_cst_2 (by decide)
  · exact sub3 main_v17 main_cst_2 main_v18 (by decide) (by decide) (by decide)
  · exact sub3 main_v12 main_v15 main_v19 (by decide) (by decide) (by decide)
  · exact sub1 main_cst_3 (by decide)
  · exact sub3 main_cst_3 main_v18 main_v20 (by decide) (by decide) (by decide)
  · exact sub3 main_v19 main_v20 main_v21 (by decide) (by decide) (by decide)

theorem hfresh1 : ∀ op ∈ (hostOps1 : List (HloOp τ sig (Elt F))), op.fresh = ∅ := by
  intro _ h; (repeat (cases h with | head => rfl | tail _ h => ?_)); exact nomatch h

def seg1 : Pipeline.HostSeg (Name := ℕ) (U := UR sig nD τ) (pcfgs (F := F)) defs₀ 𝒱₀ L lv :=
  Pipeline.HostSeg.ofOps _ _ _ _ _ S1 hostOps1 hS1 hfresh1 (W2 m) R

/-- Those buffers held at the region's exit contents: the output array at its final contents, the rest as the region was entered. -/
theorem held_S1 (c : Dev nD) :
    (StableHlo.held (c : Thread nD τ) S1 (W2 m c) : sProp 𝕄)
      = iprop((((c : Thread nD τ).loc main_v9) ↦{fullShare} outArr m c)
          ∗ bigSep restR fun b => ((c : Thread nD τ).loc b) ↦{fullShare} V m c b) := by
  have e1 : W2 m c (Proc.devRef .tc main_v9) = outArr m c := by unfold W2; rw [Function.update_self]
  have e2 : ∀ b ∈ restR, W2 m c (Proc.devRef .tc b) = V m c b := fun b hb => by
    unfold W2
    rw [Function.update_of_ne (fun e => by
      have hbv : b = main_v9 := Proc.devRef_injective _ e
      exact h9r (hbv ▸ hb))]
  unfold StableHlo.held
  rw [bigSep_map, bigSep_insert h9r]
  show iprop((((c : Thread nD τ).loc main_v9) ↦{fullShare} W2 m c (Proc.devRef .tc main_v9))
    ∗ bigSep restR fun b => (((c : Thread nD τ).loc b) ↦{fullShare} W2 m c (Proc.devRef .tc b) : sProp 𝕄)) = _
  rw [e1, bigSep_congr (Ψ := fun b => (((c : Thread nD τ).loc b) ↦{fullShare} V m c b : sProp 𝕄)) (fun b hb => by rw [e2 b hb])]

/-! ## The region -/

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S1 (W2 m c) ∗ R c)
  X c := iprop(emp)
  Y c := iprop(emp)
  Z c := bigSep restR fun b => ((c : Thread nD τ).loc b) ↦{fullShare} V m c b
  hentry c := by
    rw [show StableHlo.held (c : Thread nD τ) (Pipeline.ucRefs τ sig) (StableHlo.after hostOps0 (V₀ m c)) = unscopedBufs c (V m c) from (Pipeline.unscopedBufs_held c _).symm]
    rw [bufs_split, arrays_eq3,
      show Pipeline.prefHeld pre0 c (fun _ => fullShare) (adm (F := F) 0).1 = Tb (F := F) c from rfl, tb_eq,
      show V m c main_c = tbl (F := F) 0 from V_tbl m c 0, show V m c main_c_0 = tbl (F := F) 1 from V_tbl m c 1]
    iintro ⟨⟨⟨H8, H9, Hc, Hc0, Hrest⟩, HO⟩, -, -⟩
    ihave H8' := (pointsTo_share (PosShare.mem_left_op_right fullShare)).1 $$ H8
    icases H8' with ⟨H8l, H8r⟩
    imodintro
    isplitl [H8l H8r H9]
    · isplitl [H8l]; · iexact H8l
      isplitl [H8r]; · iexact H8r
      iexact H9
    isplitl [Hc Hc0]
    · isplitl [Hc]; · iexact Hc
      iexact Hc0
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl, PhiS_zero m c 0 _ rfl, scopedRest0_eq]
    iintro ⟨-, HT, ⟨%f, Hs⟩⟩
    isplitl [HT]; · iexact HT
    iexists f; simp only [scM, owns_whole]; iexact Hs
  hout c := by
    rw [show (dats m 0 c).Φ (Fin.last (cfgA (F := F)).N) = PhiS m c (cfgA (F := F)).N le_rfl from rfl,
      PhiS_pos m c _ _ (by rw [N_A]; decide), Pipeline.ownSems0_none, scopedRest0_eq]
    simp only [scM, owns_whole]
    iintro ⟨-, HS⟩
    isplitr; · iempintro
    isplitr; · iempintro
    iexists _; iexact HS
  hexit c := by
    rw [arrays_eq3, held_S1]
    iintro ⟨⟨-, -, H9⟩, HO, -, HZ⟩
    unfold outArr
    imodintro
    isplitr [HO]
    · isplitl [H9]; · iexact H9
      iexact HZ
    · unfold Pipeline.Dat.owesAt Pipeline.owesWithin
      icases HO with ⟨%W, -, HO⟩; iexists W; iexact HO

end Cert.KernelIdeal.Hand
end
-- ==== Proof.HandRun.lean ====
import proofs.«129605_j55473797595639_1_alg».proof.Proof.HandSegs

set_option maxRecDepth 16384

noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main as the list of the three segments. -/
abbrev segs : List (Pipeline.Seg (pcfgs (F := F)) adm (dats m) () defs₀ 𝒱₀ L lv) := [.host (seg0 m), .region (reg0 m), .host (seg1 m)]

/-- What the buffers hold at the end: the sixteen lines after the region have run. -/
def W3 (c : Dev nD) : Valuation τ sig (Elt F) := StableHlo.after hostOps1 (W2 m c)

/-- No line writes an argument: each reaches the end as launched. -/
theorem W3_arg0 (c : Dev nD) : W3 m c (Proc.devRef .tc main_arg0) = m ((c : Thread nD τ).loc main_arg0) := by
  have h1 : W3 m c (Proc.devRef .tc main_arg0) = W2 m c (Proc.devRef .tc main_arg0) := by
    dsimp only [W3, hostOps1]; after_results
  rw [h1]; unfold W2; rw [Function.update_of_ne (by decide)]
  dsimp only [hostOps0]; after_results
theorem W3_arg1 (c : Dev nD) : W3 m c (Proc.devRef .tc main_arg1) = m ((c : Thread nD τ).loc main_arg1) := by
  have h1 : W3 m c (Proc.devRef .tc main_arg1) = W2 m c (Proc.devRef .tc main_arg1) := by
    dsimp only [W3, hostOps1]; after_results
  rw [h1]; unfold W2; rw [Function.update_of_ne (by decide)]
  dsimp only [hostOps0]; after_results

/-- The physical post: the result buffer at what the lines after the region leave in it; the two arguments as launched. -/
def QC : PUnit × MemSt nD τ sig (Elt F) → Prop := fun r =>
  ∀ c : Dev nD, r.2.mem ((c : Thread nD τ).loc main_v21) = W3 m c (Proc.devRef .tc main_v21)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, from any memory with zero counters: every weakly fair execution of @main on the TensorCores
    terminates, and every final state has the result buffer at the computed contents and both arguments unchanged. -/
theorem run_main : θ_run defs (onTc (τ := τ) (main (F := F))) ⟨m, fun _ => 0, ρ⟩ (QC m) :=
  Pipeline.θ_run_regions_kit (pcfgs (F := F)) adm (dats m) () (cellOf_inj adm) emb₁ defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl)
    (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU _ : sProp 𝕄) ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) S1 (W3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v21) = W3 m c (Proc.devRef .tc main_v21)
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all S1 (fun b => ((c : Thread nD τ).1, b)) (W3 m c) s') $$ [Hh HSI]
      · isplitl [Hh] <;> iassumption
      icases Hr with ⟨%hr, HSI⟩
      imodintro
      isplitr
      · ipureintro
        exact ⟨hr _ (mem_S1 main_v21 (by decide)), (hr _ (mem_S1 main_arg0 (by decide))).trans (W3_arg0 m c),
          (hr _ (mem_S1 main_arg1 (by decide))).trans (W3_arg1 m c)⟩
      iexact HSI)
    (hQ := fun _ h => h)

end Cert.KernelIdeal.Hand
end
-- ==== Proof.Spec.lean ====
/-
  The number both programs compute, as one function of the two flattened feature matrices
  (4096 rows of 64 channels, every entry an extended real).

  For two rows `u`, `v` (64 channels each) the squared distance is taken by the expansion
  |u|² + |v|² − 2·⟨u, v⟩, clamped below at zero, and five Gaussian kernels exp(β·d) are added up,
  the five β the literal words both programs carry (−50, −5, −1/2 and the two words nearest −1/20 and −1/200).
  A pair of matrices gets the mean of that over all 4096 × 4096 pairs of rows (the divisor is the word of 2²⁴),
  and the loss is mean(x, x) + mean(y, y) − 2·mean(x, y).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A flattened feature matrix: 4096 rows, 64 channels. -/
abbrev Feat : Type := (⟨2, ![4096, 64]⟩ : Shape).Idx → EReal

/-- The sum of the five Gaussian kernels at a squared distance `d`, added in the programs' order. -/
def gauss (d : EReal) : EReal :=
  Ideal.exp (Ideal.ofBits .f32 0xC2480000#32 * d) + Ideal.exp (Ideal.ofBits .f32 0xC0A00000#32 * d)
    + Ideal.exp (Ideal.ofBits .f32 0xBF000000#32 * d) + Ideal.exp (Ideal.ofBits .f32 0xBD4CCCCD#32 * d)
    + Ideal.exp (Ideal.ofBits .f32 0xBBA3D70A#32 * d)

/-- The kernel value of two rows: the clamped expansion |u|² + |v|² − 2⟨u, v⟩ under `gauss`. -/
def entryOf (u v : Fin 64 → EReal) : EReal :=
  gauss (max ((∑ k : Fin 64, u k * u k) + (∑ k : Fin 64, v k * v k)
    - Ideal.ofBits .f32 0x40000000#32 * ∑ k : Fin 64, u k * v k) 0)

/-- Row `r` of a feature matrix. -/
def row (a : Feat) (r : Fin 4096) : Fin 64 → EReal := fun k => a (ix2 r k)

/-- The kernel value of row `r` of `a` against row `c` of `b`. -/
def entry (a b : Feat) (r c : Fin 4096) : EReal := entryOf (row a r) (row b c)

/-- The total over all pairs of rows. -/
def total (a b : Feat) : EReal := ∑ r : Fin 4096, ∑ c : Fin 4096, entry a b r c

/-- The mean over all 4096² pairs of rows. -/
def pairMean (a b : Feat) : EReal := Ideal.div (total a b) (Ideal.ofBits .f32 0x4B800000#32)

/-- The loss: mean(x, x) + mean(y, y) − 2·mean(x, y). -/
def mmd (x y : Feat) : EReal :=
  pairMean x x + pairMean y y - Ideal.ofBits .f32 0x40000000#32 * pairMean x y

/-- Column `c` of the second operand is column `c % 512` of run `c / 512`: the columns 0 … 4095 as eight runs of 512. -/
def colEquiv : Fin 8 × Fin 512 ≃ Fin 4096 where
  toFun := fun p => ⟨512 * p.1.val + p.2.val, by have := p.1.isLt; have := p.2.isLt; omega⟩
  invFun := fun c => (⟨c.val / 512, by have := c.isLt; omega⟩, ⟨c.val % 512, Nat.mod_lt _ (by decide)⟩)
  left_inv := fun p => by
    have h1 := p.1.isLt; have h2 := p.2.isLt
    refine Prod.ext (Fin.ext ?_) (Fin.ext ?_)
    · show (512 * p.1.val + p.2.val) / 512 = p.1.val; omega
    · show (512 * p.1.val + p.2.val) % 512 = p.2.val; omega
  right_inv := fun c => Fin.ext (by show 512 * (c.val / 512) + c.val % 512 = c.val; omega)

/-- A total over all pairs of rows is the sum over the eight column runs of the totals over 4096 × 512. -/
theorem total_eq_blocks (f : Fin 4096 → Fin 4096 → EReal) :
    (∑ r : Fin 4096, ∑ c : Fin 4096, f r c)
      = ∑ j : Fin 8, ∑ r : Fin 4096, ∑ c : Fin 512,
          f r ⟨512 * j.val + c.val, by have := j.isLt; have := c.isLt; omega⟩ := by
  rw [Finset.sum_comm (f := fun (j : Fin 8) (r : Fin 4096) => ∑ c : Fin 512, f r ⟨512 * j.val + c.val, by have := j.isLt; have := c.isLt; omega⟩)]
  refine Finset.sum_congr rfl fun r _ => ?_
  rw [← Equiv.sum_comp colEquiv (fun c => f r c), Fintype.sum_prod_type]
  rfl

end Cert.Spec

end
-- ==== Proof.BlockTotal.lean ====
/-
  One grid step of the kernel, as arithmetic on extended reals.

  A step reads a block `x0` of 4096 rows and a block `x1` of 512 rows, 64 channels each. For row `r` of the first
  and row `c` of the second it forms the squared distance by the expansion |u|² + |v|² − 2⟨u, v⟩ (two sums of
  squares along the channels, laid out as a column and as a row and repeated over the block, and a matrix product
  of the first block with the transpose of the second), clamps it below at zero, adds up five Gaussian kernels
  exp(β·d) of it starting from zero, sums the 4096 × 512 values into one number, and adds that to the running
  total. Read at an index, each layout step picks one entry, each reduction is a finite sum over a coordinate, and
  the matrix product is the sum over the 64 channels; so the update is the old total plus the double sum, over the
  block's pairs of rows, of the five-kernel value of the pair.
-/
import proofs.«129605_j55473797595639_1_alg».proof.Proof.Gen.KernelIdeal.Skeleton
import proofs.«129605_j55473797595639_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.BlockTotal

open Idealize.ShloMosaic Idealize.ShloMosaic.ValueIdx Cert.KernelIdeal Cert.KernelIdeal.Gen

variable {α : Type}

/-- A sum along the second axis of a matrix, read at a row: the sum of that row's entries. -/
theorem rowSum_apply {n m : ℕ} (v : FVec Ideal ⟨2, ![n, m]⟩ .f32)
    (h : Shape.Reduces ⟨2, ![n, m]⟩ [1] ⟨1, ![n]⟩) (hφ : FKind.Formats .f32)
    (hacc : (0x00000000#32 : BitVec 32) = 0x00000000#32) (r : Fin n) :
    multiReduction .add [1] ⟨1, ![n]⟩ v 0x00000000#32 h hφ hacc (ix1 r) = ∑ k : Fin m, v (ix2 r k) := by
  refine (Ideal.multiReduction_add_single v 0x00000000#32 h hφ hacc (ix1 r)).trans ?_
  refine Finset.sum_congr rfl fun k _ => congrArg v (funext fun a => ?_)
  match a with
  | ⟨0, _⟩ => exact Fin.ext rfl
  | ⟨1, _⟩ => exact Fin.ext rfl

/-- A vector viewed as a one-column matrix reads, at `(r, 0)`, the vector at `r`. -/
theorem castCol_apply {n : ℕ} (v : (⟨1, ![n]⟩ : Shape).Idx → α) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_one, Shape.rowMajor_val_two]
    show r.val = r.val * 1 + u.val
    omega)

/-- A one-column matrix repeated along the columns reads, at `(r, c)`, its entry of row `r`. -/
theorem bcastCol_apply {n m : ℕ} (v : (⟨2, ![n, 1]⟩ : Shape).Idx → α) (h : (⟨2, ![n, 1]⟩ : Shape).Broadcasts ⟨2, ![n, m]⟩)
    (r : Fin n) (c : Fin m) : broadcastTo ⟨2, ![n, m]⟩ v h (ix2 r c) = v (ix2 r (0 : Fin 1)) := by
  refine broadcastTo_apply v h (ix2 r c) (ix2 r (0 : Fin 1)) fun ax => ?_
  match ax with
  | ⟨0, _⟩ =>
    show r.val = if n = 1 then 0 else r.val
    split
    · have := r.isLt; omega
    · rfl
  | ⟨1, _⟩ => rfl

/-- The block's matrix product into a zero accumulator, read at `(r, c)`: the sum over the 64 channels of the
    products of the left operand's row `r` and the right operand's column `c`. -/
theorem dot_apply (a : FVec Ideal S4096x64 .f32) (b : FVec Ideal S64x512 .f32) (r : Fin 4096) (c : Fin 512) :
    matmul dot_S4096x64_S64x512_S4096x512_1_0_0_1_n_n none a b (constant (F := Ideal) S4096x512 .f32 0x00000000#32) (ix2 r c)
      = ∑ k : Fin 64, a (ix2 r k) * b (ix2 k c) := by
  refine (Ideal.matmul_constant_zero_apply dot_S4096x64_S64x512_S4096x512_1_0_0_1_n_n none a b (ix2 r c)).trans ?_
  rw [← Equiv.sum_comp (contrEquiv1 dot_S4096x64_S64x512_S4096x512_1_0_0_1_n_n 64 rfl rfl).symm]
  refine Finset.sum_congr rfl fun k _ => ?_
  have hL : dot_S4096x64_S64x512_S4096x512_1_0_0_1_n_n.lhsIdx (ix2 r c)
      ((contrEquiv1 dot_S4096x64_S64x512_S4096x512_1_0_0_1_n_n 64 rfl rfl).symm k) = ix2 r k := by
    funext ax
    match ax with
    | ⟨0, _⟩ => exact Fin.ext rfl
    | ⟨1, _⟩ =>
      exact Fin.ext ((DotDims.lhsIdx_val_of_single _ rfl _ _).trans
        (contrEquiv1_symm_val dot_S4096x64_S64x512_S4096x512_1_0_0_1_n_n 64 rfl rfl k))
  have hR : dot_S4096x64_S64x512_S4096x512_1_0_0_1_n_n.rhsIdx (ix2 r c)
      ((contrEquiv1 dot_S4096x64_S64x512_S4096x512_1_0_0_1_n_n 64 rfl rfl).symm k) = ix2 k c := by
    funext ax
    match ax with
    | ⟨0, _⟩ =>
      exact Fin.ext ((DotDims.rhsIdx_val_of_single _ rfl _ _).trans
        (contrEquiv1_symm_val dot_S4096x64_S64x512_S4096x512_1_0_0_1_n_n 64 rfl rfl k))
    | ⟨1, _⟩ => exact Fin.ext rfl
  rw [hL, hR]

/-- The clamped squared distance of the block, read at `(r, c)`: the expansion |u|² + |v|² − 2⟨u, v⟩ of row `r` of
    the first operand against row `c` of the second, clamped below at zero. -/
theorem pay4_apply (x0 : Vec Ideal S1x4096x64 .f32) (x1 : Vec Ideal S1x512x64 .f32) (r : Fin 4096) (c : Fin 512) :
    k0_pay4 (F := Ideal) x0 x1 (ix2 r c)
      = max ((∑ k : Fin 64, x0 (ix3 0 r k) * x0 (ix3 0 r k)) + (∑ k : Fin 64, x1 (ix3 0 c k) * x1 (ix3 0 c k))
          - Ideal.ofBits .f32 0x40000000#32 * ∑ k : Fin 64, x0 (ix3 0 r k) * x1 (ix3 0 c k)) 0 := by
  have hT : ∀ k : Fin 64, transpose S64x512 [1, 0] (shapeCast S512x64 x1 shapeCasts_S1x512x64_S512x64)
      transposes_S512x64_p1_0_S64x512 (ix2 k c) = x1 (ix3 0 c k) := fun k =>
    (transpose_ix2_apply _ _ k c).trans (shapeCast_1ab_ab_apply _ _ c k)
  unfold k0_pay4
  dsimp only
  rw [maximumf_apply, subf_apply, addf_apply, mulf_apply, broadcast_apply, broadcast_apply]
  rw [bcastCol_apply, castCol_apply, rowSum_apply]
  rw [broadcastTo_1b_ab_apply, transpose_ix2_apply, castCol_apply, rowSum_apply]
  rw [dot_apply]
  simp only [mulf_apply, shapeCast_1ab_ab_apply, hT]
  rw [show (FloatOps.ofBits FTy.f32 0x00000000#32 : Ideal .f32) = 0 from Ideal.ofBits_zero_f32]
  rfl

/-- An elementwise exponential read at an index. -/
theorem exp_apply {s : Shape} (a : FVec Ideal s .f32) (i : s.Idx) : exp a i = Ideal.exp (a i) := rfl

/-- The first three Gaussian terms of the block at `(r, c)`, added from a zero start, in terms of the clamped
    squared distance there. -/
theorem pay5_apply (x0 : Vec Ideal S1x4096x64 .f32) (x1 : Vec Ideal S1x512x64 .f32) (r : Fin 4096) (c : Fin 512) :
    k0_pay5 (F := Ideal) x0 x1 (ix2 r c)
      = Ideal.exp (Ideal.ofBits .f32 0xC2480000#32 * k0_pay4 (F := Ideal) x0 x1 (ix2 r c))
        + Ideal.exp (Ideal.ofBits .f32 0xC0A00000#32 * k0_pay4 (F := Ideal) x0 x1 (ix2 r c))
        + Ideal.exp (Ideal.ofBits .f32 0xBF000000#32 * k0_pay4 (F := Ideal) x0 x1 (ix2 r c)) := by
  unfold k0_pay5
  rw [addf_apply, addf_apply, addf_apply, exp_apply, exp_apply, exp_apply, mulf_apply, mulf_apply, mulf_apply,
    broadcast_apply, broadcast_apply, broadcast_apply, broadcast_apply]
  rw [show (FloatOps.ofBits FTy.f32 0x00000000#32 : Ideal .f32) = 0 from Ideal.ofBits_zero_f32, zero_add]
  rfl

/-- The fourth Gaussian term's exponent at `(r, c)`. -/
theorem pay6_apply (x0 : Vec Ideal S1x4096x64 .f32) (x1 : Vec Ideal S1x512x64 .f32) (r : Fin 4096) (c : Fin 512) :
    k0_pay6 (F := Ideal) x0 x1 (ix2 r c)
      = Ideal.ofBits .f32 0xBD4CCCCD#32 * k0_pay4 (F := Ideal) x0 x1 (ix2 r c) := by
  unfold k0_pay6
  rw [mulf_apply, broadcast_apply]
  rfl

/-- A sum over every index of a reshaped array is the sum over every index of the array. -/
theorem sum_shapeCast {s t : Shape} (x : s.Idx → EReal) (h : s.ShapeCasts t) :
    ∑ j : t.Idx, shapeCast t x h j = ∑ k : s.Idx, x k :=
  Equiv.sum_comp (Shape.reshapeEquiv h) x

/-- The sum of a `[1, 4096, 512]` array over its last two axes, at its one index: the sum of every entry. -/
theorem redTotal_apply (v : FVec Ideal S1x4096x512 .f32) (h : S1x4096x512.Reduces [1, 2] S1)
    (hφ : FKind.Formats .f32) (hacc : (0x00000000#32 : BitVec 32) = 0x00000000#32) (j : S1.Idx) :
    multiReduction .add [1, 2] S1 v 0x00000000#32 h hφ hacc j = ∑ i : S1x4096x512.Idx, v i :=
  Ideal.multiReduction_add_total v 0x00000000#32 h (fun b => by match b with | ⟨0, _⟩ => rfl) hφ hacc j

/-- One step's update of the running total: the old total plus the sum, over the whole block, of the three
    Gaussian terms already added, the fourth and the fifth. -/
theorem pay1_total (v23 v36 v38 : FVec Ideal S4096x512 .f32) (acc : Vec Ideal S1x1 .f32) (i : S1x1.Idx) :
    k0_pay1 (F := Ideal) v23 v36 v38 acc i
      = acc i + ∑ r : Fin 4096, ∑ c : Fin 512,
          (v36 (ix2 r c) + Ideal.exp (v38 (ix2 r c))
            + Ideal.exp (Ideal.ofBits .f32 0xBBA3D70A#32 * v23 (ix2 r c))) := by
  unfold k0_pay1
  dsimp only
  rw [shapeCast_self, addf_apply, broadcast_apply]
  congr 1
  unfold extractAt
  refine (shapeCast_apply _ shapeCasts_S1_S1x1x1 _ (ix1 (0 : Fin 1)) ?_).trans ?_
  · rw [Shape.rowMajor_val_one, Shape.rowMajor_val_three]
    rfl
  refine (redTotal_apply _ _ _ _ _).trans ?_
  refine (sum_shapeCast _ _).trans ?_
  refine (sum_idx2 _).trans ?_
  exact Finset.sum_congr rfl fun r _ => Finset.sum_congr rfl fun c _ => rfl

/-- One grid step's update of the running total, in terms of the two blocks it read: the old total plus the sum over
    the block's 4096 × 512 pairs of rows of the five-kernel value of the pair. -/
theorem pay1_apply (x0 : Vec Ideal S1x4096x64 .f32) (x1 : Vec Ideal S1x512x64 .f32) (acc : Vec Ideal S1x1 .f32)
    (i : S1x1.Idx) :
    k0_pay1 (F := Ideal) (k0_pay4 (F := Ideal) x0 x1) (k0_pay5 (F := Ideal) x0 x1) (k0_pay6 (F := Ideal) x0 x1) acc i
      = acc i + ∑ r : Fin 4096, ∑ c : Fin 512,
          Cert.Spec.entryOf (fun k => x0 (ix3 0 r k)) (fun k => x1 (ix3 0 c k)) := by
  refine (pay1_total _ _ _ acc i).trans (congrArg (acc i + ·) ?_)
  refine Finset.sum_congr rfl fun r _ => Finset.sum_congr rfl fun c _ => ?_
  rw [pay5_apply, pay6_apply, pay4_apply]
  unfold Cert.Spec.entryOf Cert.Spec.gauss
  rfl

/-- The value the running total is reset to at a pair's first column tile: zero. -/
theorem pay3_apply (i : S1x1.Idx) : k0_pay3 (F := Ideal) i = 0 := by
  unfold k0_pay3
  rw [shapeCast_self]
  exact Ideal.ofBits_zero_f32

/-- The value written out at a pair's last column tile: the running total, reshaped. -/
theorem pay2_apply (v : Vec Ideal S1x1 .f32) (i : S1x1x1.Idx) : k0_pay2 (F := Ideal) v i = v (ix2 0 0) := by
  unfold k0_pay2
  refine shapeCast_apply v _ i (ix2 0 0) ?_
  have h0 : (i 0).val < 1 := (i 0).isLt
  have h1 : (i 1).val < 1 := (i 1).isLt
  have h2 : (i 2).val < 1 := (i 2).isLt
  rw [Shape.rowMajor_val_two, Shape.rowMajor_val_three]
  show 0 * 1 + 0 = ((i 0).val * 1 + (i 1).val) * 1 + (i 2).val
  omega

end Cert.KernelIdeal.BlockTotal

end
-- ==== Proof.Fold.lean ====
/-
  The accumulation over the eight column tiles, abstractly.

  The 4096 columns of a pair's kernel matrix are eight runs of 512. The pair's total is the sum of the eight tiles'
  totals, and an accumulator that starts from zero at the first tile and takes in one tile's total at a time therefore
  ends at the pair's total. Only the laws of a commutative monoid under addition are used: nothing has to be finite.
-/
import proofs.«129605_j55473797595639_1_alg».proof.Proof.Spec

noncomputable section

namespace Cert.Spec

open Idealize.ShloMosaic Idealize.ShloMosaic.ValueIdx

/-- The total of one 4096 × 512 column tile `j` of the pair (a, b). -/
def tileTotal (a b : Feat) (j : Fin 8) : EReal :=
  ∑ r : Fin 4096, ∑ c : Fin 512, entryOf (row a r) (row b ⟨512 * j.val + c.val, by have := j.isLt; have := c.isLt; omega⟩)

/-- The pair's total is the sum of its eight tiles' totals. -/
theorem total_eq_tiles (a b : Feat) : total a b = ∑ j : Fin 8, tileTotal a b j :=
  total_eq_blocks (fun r c => entry a b r c)

/-- An accumulator reset to zero before tile 0 and increased by each tile's total ends at the pair's total. -/
theorem acc_total (a b : Feat) (acc : Fin 8 → EReal) (h0 : acc 0 = 0 + tileTotal a b 0)
    (hs : ∀ j : Fin 8, (hj : j.val + 1 < 8) → acc ⟨j.val + 1, hj⟩ = acc j + tileTotal a b ⟨j.val + 1, hj⟩) :
    acc 7 = total a b := by
  have h1 : acc 1 = acc 0 + tileTotal a b 1 := hs 0 (by decide)
  have h2 : acc 2 = acc 1 + tileTotal a b 2 := hs 1 (by decide)
  have h3 : acc 3 = acc 2 + tileTotal a b 3 := hs 2 (by decide)
  have h4 : acc 4 = acc 3 + tileTotal a b 4 := hs 3 (by decide)
  have h5 : acc 5 = acc 4 + tileTotal a b 5 := hs 4 (by decide)
  have h6 : acc 6 = acc 5 + tileTotal a b 6 := hs 5 (by decide)
  have h7 : acc 7 = acc 6 + tileTotal a b 7 := hs 6 (by decide)
  rw [h7, h6, h5, h4, h3, h2, h1, h0, zero_add, total_eq_tiles, Fin.sum_univ_eight]

end Cert.Spec

end
-- ==== Proof.RefSpec.lean ====
/-
  The reference program's result is the specification.

  The reference flattens its two arguments to feature matrices of 4096 rows by 64 channels and then, for each of the
  three pairs (first, first), (second, second), (first, second), forms the 4096 × 4096 matrix of kernel values of the
  rows, totals it and divides by 2²⁴; the result is the first mean plus the second minus twice the third. Read at the
  ideal values, operation by operation, each of the three blocks is the specification's mean of its pair of feature
  matrices (the flattened arguments are kept as they are and never read at an index), and the last three operations
  are the specification's combination of the three means.
-/
import proofs.«129605_j55473797595639_1_alg».proof.Proof.Gen.ReferenceIdeal.Read
import proofs.«129605_j55473797595639_1_alg».proof.Proof.Spec

noncomputable section

namespace Cert.ReferenceIdeal.RefSpec

open Idealize.ShloMosaic Idealize.ShloMosaic.ValueIdx Cert.ReferenceIdeal Cert.ReferenceIdeal.Read

/-- The kernel matrix of the first argument with itself, read at row `r`, column `c`: the two rows' sums of squares
    (each added to a zero initial value) are spread along the columns and along the rows and added, twice the rows'
    inner product is taken off, the difference is clamped below at zero, and the five exponentials of its literal
    multiples are added one after another onto a zero matrix. The zeros drop out and what is left is the
    specification's entry for the two rows. -/
theorem v42_at (x0 : (⟨S4x64x32x32, .f32⟩ : BufTy).Contents (Elt Ideal)) (r c : Fin 4096) :
    val_main_v42 (F := Ideal) x0 (ix2 r c) = Cert.Spec.entry (val_main_v2 (F := Ideal) x0) (val_main_v2 (F := Ideal) x0) r c := by
  have e1 : ∀ k : Fin 64, idx_main_v7 (idx_main_v10 (idx_main_v12 (ix2 r c))) k = ix2 r k := fun k =>
    funext fun a => Fin.ext (by match a with | ⟨0, _⟩ => rfl | ⟨1, _⟩ => rfl)
  have e2 : ∀ k : Fin 64, idx_main_v9 (idx_main_v11 (idx_main_v13 (ix2 r c))) k = ix2 c k := fun k =>
    funext fun a => Fin.ext (by match a with | ⟨0, _⟩ => rfl | ⟨1, _⟩ => rfl)
  have e3 : ∀ k : Fin 64, lidx_main_v16 (ix2 r c) k = ix2 r k := fun k =>
    funext fun a => Fin.ext (by match a with | ⟨0, _⟩ => rfl | ⟨1, _⟩ => rfl)
  have e4 : ∀ k : Fin 64, idx_main_v15 (ridx_main_v16 (ix2 r c) k) = ix2 c k := fun k =>
    funext fun a => Fin.ext (by match a with | ⟨0, _⟩ => rfl | ⟨1, _⟩ => rfl)
  simp only [val_main_v42_apply, val_main_v41_apply, val_main_v40_apply, val_main_v39_apply, val_main_cst_8_apply,
    val_main_v38_apply, val_main_v37_apply, val_main_v36_apply, val_main_v35_apply, val_main_cst_7_apply,
    val_main_v34_apply, val_main_v33_apply, val_main_v32_apply, val_main_v31_apply, val_main_cst_6_apply,
    val_main_v30_apply, val_main_v29_apply, val_main_v28_apply, val_main_v27_apply, val_main_cst_5_apply,
    val_main_v26_apply, val_main_v25_apply, val_main_cst_4_apply, val_main_v24_apply, val_main_v23_apply,
    val_main_v22_apply, val_main_cst_3_apply,
    val_main_v21_apply, val_main_v20_apply, val_main_cst_2_apply, val_main_v19_apply, val_main_v18_apply,
    val_main_v17_apply, val_main_cst_1_apply, val_main_v16_apply, val_main_v15_apply, val_main_v14_apply,
    val_main_v13_apply, val_main_v12_apply, val_main_v11_apply, val_main_v10_apply, val_main_v9_apply,
    val_main_cst_0_apply, val_main_v8_apply, val_main_v7_apply, val_main_cst_apply, val_main_v6_apply]
  simp only [e1, e2, e3, e4, Ideal.mulf_def, Ideal.addf_def, Ideal.subf_def, Ideal.maximumf_def,
    Ideal.hostUnary_exp_def, Ideal.ofBits_def, Ideal.ofBits_zero_f32, zero_add]
  rfl

/-- Its total over all index pairs (onto a zero initial value) is the double sum over rows and columns, and the
    quotient by the word of 2²⁴ is the specification's mean for this pair of feature matrices. -/
theorem v44_eq (x0 : (⟨S4x64x32x32, .f32⟩ : BufTy).Contents (Elt Ideal)) :
    val_main_v44 (F := Ideal) x0 = fun _ => Cert.Spec.pairMean (val_main_v2 (F := Ideal) x0) (val_main_v2 (F := Ideal) x0) := by
  funext i
  rw [val_main_v44_apply, val_main_v43_apply, val_main_cst_9_apply, val_main_cst_10_apply]
  simp only [Ideal.hostDivf_def, Ideal.ofBits_def, Ideal.ofBits_zero_f32, zero_add]
  rw [sum_idx2]
  simp only [v42_at]
  rfl

/-- The kernel matrix of the second argument with itself, read at row `r`, column `c`: the two rows' sums of squares
    (each added to a zero initial value) are spread along the columns and along the rows and added, twice the rows'
    inner product is taken off, the difference is clamped below at zero, and the five exponentials of its literal
    multiples are added one after another onto a zero matrix. The zeros drop out and what is left is the
    specification's entry for the two rows. -/
theorem v81_at (x1 : (⟨S4x64x32x32, .f32⟩ : BufTy).Contents (Elt Ideal)) (r c : Fin 4096) :
    val_main_v81 (F := Ideal) x1 (ix2 r c) = Cert.Spec.entry (val_main_v5 (F := Ideal) x1) (val_main_v5 (F := Ideal) x1) r c := by
  have e1 : ∀ k : Fin 64, idx_main_v46 (idx_main_v49 (idx_main_v51 (ix2 r c))) k = ix2 r k := fun k =>
    funext fun a => Fin.ext (by match a with | ⟨0, _⟩ => rfl | ⟨1, _⟩ => rfl)
  have e2 : ∀ k : Fin 64, idx_main_v48 (idx_main_v50 (idx_main_v52 (ix2 r c))) k = ix2 c k := fun k =>
    funext fun a => Fin.ext (by match a with | ⟨0, _⟩ => rfl | ⟨1, _⟩ => rfl)
  have e3 : ∀ k : Fin 64, lidx_main_v55 (ix2 r c) k = ix2 r k := fun k =>
    funext fun a => Fin.ext (by match a with | ⟨0, _⟩ => rfl | ⟨1, _⟩ => rfl)
  have e4 : ∀ k : Fin 64, idx_main_v54 (ridx_main_v55 (ix2 r c) k) = ix2 c k := fun k =>
    funext fun a => Fin.ext (by match a with | ⟨0, _⟩ => rfl | ⟨1, _⟩ => rfl)
  simp only [val_main_v81_apply, val_main_v80_apply, val_main_v79_apply, val_main_v78_apply, val_main_cst_20_apply,
    val_main_v77_apply, val_main_v76_apply, val_main_v75_apply, val_main_v74_apply, val_main_cst_19_apply,
    val_main_v73_apply, val_main_v72_apply, val_main_v71_apply, val_main_v70_apply, val_main_cst_18_apply,
    val_main_v69_apply, val_main_v68_apply, val_main_v67_apply, val_main_v66_apply, val_main_cst_17_apply,
    val_main_v65_apply, val_main_v64_apply, val_main_cst_16_apply, val_main_v63_apply, val_main_v62_apply,
    val_main_v61_apply, val_main_cst_15_apply,
    val_main_v60_apply, val_main_v59_apply, val_main_cst_14_apply, val_main_v58_apply, val_main_v57_apply,
    val_main_v56_apply, val_main_cst_13_apply, val_main_v55_apply, val_main_v54_apply, val_main_v53_apply,
    val_main_v52_apply, val_main_v51_apply, val_main_v50_apply, val_main_v49_apply, val_main_v48_apply,
    val_main_cst_12_apply, val_main_v47_apply, val_main_v46_apply, val_main_cst_11_apply, val_main_v45_apply]
  simp only [e1, e2, e3, e4, Ideal.mulf_def, Ideal.addf_def, Ideal.subf_def, Ideal.maximumf_def,
    Ideal.hostUnary_exp_def, Ideal.ofBits_def, Ideal.ofBits_zero_f32, zero_add]
  rfl

/-- Its total over all index pairs (onto a zero initial value) is the double sum over rows and columns, and the
    quotient by the word of 2²⁴ is the specification's mean for this pair of feature matrices. -/
theorem v83_eq (x1 : (⟨S4x64x32x32, .f32⟩ : BufTy).Contents (Elt Ideal)) :
    val_main_v83 (F := Ideal) x1 = fun _ => Cert.Spec.pairMean (val_main_v5 (F := Ideal) x1) (val_main_v5 (F := Ideal) x1) := by
  funext i
  rw [val_main_v83_apply, val_main_v82_apply, val_main_cst_21_apply, val_main_cst_22_apply]
  simp only [Ideal.hostDivf_def, Ideal.ofBits_def, Ideal.ofBits_zero_f32, zero_add]
  rw [sum_idx2]
  simp only [v81_at]
  rfl

/-- The kernel matrix of the first argument with the second, read at row `r`, column `c`: the two rows' sums of squares
    (each added to a zero initial value) are spread along the columns and along the rows and added, twice the rows'
    inner product is taken off, the difference is clamped below at zero, and the five exponentials of its literal
    multiples are added one after another onto a zero matrix. The zeros drop out and what is left is the
    specification's entry for the two rows. -/
theorem v120_at (x0 x1 : (⟨S4x64x32x32, .f32⟩ : BufTy).Contents (Elt Ideal)) (r c : Fin 4096) :
    val_main_v120 (F := Ideal) x0 x1 (ix2 r c) = Cert.Spec.entry (val_main_v2 (F := Ideal) x0) (val_main_v5 (F := Ideal) x1) r c := by
  have e1 : ∀ k : Fin 64, idx_main_v85 (idx_main_v88 (idx_main_v90 (ix2 r c))) k = ix2 r k := fun k =>
    funext fun a => Fin.ext (by match a with | ⟨0, _⟩ => rfl | ⟨1, _⟩ => rfl)
  have e2 : ∀ k : Fin 64, idx_main_v87 (idx_main_v89 (idx_main_v91 (ix2 r c))) k = ix2 c k := fun k =>
    funext fun a => Fin.ext (by match a with | ⟨0, _⟩ => rfl | ⟨1, _⟩ => rfl)
  have e3 : ∀ k : Fin 64, lidx_main_v94 (ix2 r c) k = ix2 r k := fun k =>
    funext fun a => Fin.ext (by match a with | ⟨0, _⟩ => rfl | ⟨1, _⟩ => rfl)
  have e4 : ∀ k : Fin 64, idx_main_v93 (ridx_main_v94 (ix2 r c) k) = ix2 c k := fun k =>
    funext fun a => Fin.ext (by match a with | ⟨0, _⟩ => rfl | ⟨1, _⟩ => rfl)
  simp only [val_main_v120_apply, val_main_v119_apply, val_main_v118_apply, val_main_v117_apply, val_main_cst_32_apply,
    val_main_v116_apply, val_main_v115_apply, val_main_v114_apply, val_main_v113_apply, val_main_cst_31_apply,
    val_main_v112_apply, val_main_v111_apply, val_main_v110_apply, val_main_v109_apply, val_main_cst_30_apply,
    val_main_v108_apply, val_main_v107_apply, val_main_v106_apply, val_main_v105_apply, val_main_cst_29_apply,
    val_main_v104_apply, val_main_v103_apply, val_main_cst_28_apply, val_main_v102_apply, val_main_v101_apply,
    val_main_v100_apply, val_main_cst_27_apply,
    val_main_v99_apply, val_main_v98_apply, val_main_cst_26_apply, val_main_v97_apply, val_main_v96_apply,
    val_main_v95_apply, val_main_cst_25_apply, val_main_v94_apply, val_main_v93_apply, val_main_v92_apply,
    val_main_v91_apply, val_main_v90_apply, val_main_v89_apply, val_main_v88_apply, val_main_v87_apply,
    val_main_cst_24_apply, val_main_v86_apply, val_main_v85_apply, val_main_cst_23_apply, val_main_v84_apply]
  simp only [e1, e2, e3, e4, Ideal.mulf_def, Ideal.addf_def, Ideal.subf_def, Ideal.maximumf_def,
    Ideal.hostUnary_exp_def, Ideal.ofBits_def, Ideal.ofBits_zero_f32, zero_add]
  rfl

/-- Its total over all index pairs (onto a zero initial value) is the double sum over rows and columns, and the
    quotient by the word of 2²⁴ is the specification's mean for this pair of feature matrices. -/
theorem v122_eq (x0 x1 : (⟨S4x64x32x32, .f32⟩ : BufTy).Contents (Elt Ideal)) :
    val_main_v122 (F := Ideal) x0 x1 = fun _ => Cert.Spec.pairMean (val_main_v2 (F := Ideal) x0) (val_main_v5 (F := Ideal) x1) := by
  funext i
  rw [val_main_v122_apply, val_main_v121_apply, val_main_cst_33_apply, val_main_cst_34_apply]
  simp only [Ideal.hostDivf_def, Ideal.ofBits_def, Ideal.ofBits_zero_f32, zero_add]
  rw [sum_idx2]
  simp only [v120_at]
  rfl

/-- The reference's result: the sum of the first two means less twice the third, which is the specification's loss of
    the two flattened arguments. -/
theorem result_eq (x0 x1 : (⟨S4x64x32x32, .f32⟩ : BufTy).Contents (Elt Ideal)) :
    val_main_v125 (F := Ideal) x0 x1
      = fun _ => Cert.Spec.mmd (val_main_v2 (F := Ideal) x0) (val_main_v5 (F := Ideal) x1) := by
  funext i
  rw [val_main_v125_apply, val_main_v124_apply, val_main_v123_apply, val_main_cst_35_apply,
    v44_eq, v83_eq, v122_eq]
  rfl

end Cert.ReferenceIdeal.RefSpec

end
-- ==== Proof.HostGlue.lean ====
/-
  The host operations around the kernel call, as named terms, and what they are at the ideal values.

  Before the call the program flattens each of its two arguments to a feature matrix of 4096 rows by 64 channels (a
  reshape, a transpose of the last two axes, a reshape: the same three operations the reference starts with), gives each
  a leading axis of extent one and stacks the two along it. After the call it takes the three totals the call returns,
  divides each by the word of 2²⁴ and combines the three means as first plus second minus twice the third.
-/
import proofs.«129605_j55473797595639_1_alg».proof.Proof.Gen.KernelIdeal.Launch
import proofs.«129605_j55473797595639_1_alg».proof.Proof.RefSpec
import Idealize.ShloMosaic.Lib.Pipeline.Value
import Idealize.ShloMosaic.Lib.ValueLayout

noncomputable section

namespace Cert.KernelIdeal.HostGlue

open Idealize.ShloMosaic Idealize.ShloMosaic.ValueIdx Cert.KernelIdeal
open Facts₀ Facts

variable {F : FTy → Type} [FloatOps F]

/-- An argument flattened to its feature matrix: the spatial axes merged, the channel axis moved last, the batch
    and position axes merged into the 4096 rows. -/
def flat (x : (⟨S4x64x32x32, .f32⟩ : BufTy).Contents (Elt F)) : (⟨S4096x64, .f32⟩ : BufTy).Contents (Elt F) :=
  shapeCast S4096x64
    (transpose S4x1024x64 [0, 2, 1] (shapeCast S4x64x1024 x shapeCasts_S4x64x32x32_S4x64x1024)
      transposes_S4x64x1024_S4x1024x64_0_2_1)
    shapeCasts_S4x1024x64_S4096x64

/-- The two feature matrices stacked along a new leading axis: what the kernel call reads. -/
def feat (x y : (⟨S4x64x32x32, .f32⟩ : BufTy).Contents (Elt F)) : (⟨S2x4096x64, .f32⟩ : BufTy).Contents (Elt F) :=
  concatenate S2x4096x64 0
    [⟨S1x4096x64, broadcastInDim S1x4096x64 ![1, 2] bcast_S4096x64_S1x4096x64_1_2 (flat x)⟩,
     ⟨S1x4096x64, broadcastInDim S1x4096x64 ![1, 2] bcast_S4096x64_S1x4096x64_1_2 (flat y)⟩]
    concatenates_S1x4096x64_S1x4096x64_S2x4096x64_d0

/-- The result as a function of the three totals `o` the kernel call returns: each total divided by the word of 2²⁴,
    the first two means added and twice the third taken off. -/
def tailTerm (o : (⟨S3x1x1, .f32⟩ : BufTy).Contents (Elt F)) : (⟨S_, .f32⟩ : BufTy).Contents (Elt F) :=
  subf
    (addf
      (Host.divf (shapeCast S_ (extractStridedSlice S1x1x1 ![0, 0, 0] o slices_S3x1x1_S1x1x1_0_0_0) shapeCasts_S1x1x1_S_)
        (constant (F := F) S_ .f32 0x4B800000#32))
      (Host.divf (shapeCast S_ (extractStridedSlice S1x1x1 ![1, 0, 0] o slices_S3x1x1_S1x1x1_1_0_0) shapeCasts_S1x1x1_S_)
        (constant (F := F) S_ .f32 0x4B800000#32)))
    (mulf (constant (F := F) S_ .f32 0x40000000#32)
      (Host.divf (shapeCast S_ (extractStridedSlice S1x1x1 ![2, 0, 0] o slices_S3x1x1_S1x1x1_2_0_0) shapeCasts_S1x1x1_S_)
        (constant (F := F) S_ .f32 0x4B800000#32)))

/-- Both programs flatten an argument by the same three operations at the same shapes: the kernel program's
    flattened first argument is the reference's. -/
theorem flat_eq_ref (x : (⟨S4x64x32x32, .f32⟩ : BufTy).Contents (Elt Ideal)) :
    flat (F := Ideal) x = Cert.ReferenceIdeal.Read.val_main_v2 (F := Ideal) x := rfl

/-- The same for the second argument. -/
theorem flat_eq_ref5 (x : (⟨S4x64x32x32, .f32⟩ : BufTy).Contents (Elt Ideal)) :
    flat (F := Ideal) x = Cert.ReferenceIdeal.Read.val_main_v5 (F := Ideal) x := rfl

/-- The stacked array at slab `p`, row `r`, channel `k`: the first feature matrix in slab 0, the second in slab 1. -/
theorem feat_apply (x y : (⟨S4x64x32x32, .f32⟩ : BufTy).Contents (Elt Ideal)) (p : Fin 2) (r : Fin 4096) (k : Fin 64) :
    feat (F := Ideal) x y (ix3 p r k)
      = if p.val = 0 then flat (F := Ideal) x (ix2 r k) else flat (F := Ideal) y (ix2 r k) := by
  have hb : ∀ z : (⟨S4096x64, .f32⟩ : BufTy).Contents (Elt Ideal),
      broadcastInDim S1x4096x64 ![1, 2] bcast_S4096x64_S1x4096x64_1_2 z (ix3 (0 : Fin 1) r k) = z (ix2 r k) := fun z =>
    broadcastInDim_apply _ bcast_S4096x64_S1x4096x64_1_2 z (ix3 (0 : Fin 1) r k) (ix2 r k) (fun a => match a with
      | ⟨0, _⟩ => by show r.val = if (4096 : Nat) = 1 then 0 else r.val; rw [if_neg (by decide)]
      | ⟨1, _⟩ => by show k.val = if (64 : Nat) = 1 then 0 else k.val; rw [if_neg (by decide)])
  unfold feat
  by_cases hp : p.val = 0
  · rw [if_pos hp]
    refine (concatenate_pair_apply_left (0 : Fin S2x4096x64.rank) _ _
      concatenates_S1x4096x64_S1x4096x64_S2x4096x64_d0 (ix3 p r k) rfl (ix3 (0 : Fin 1) r k) (fun b => ?_)).trans (hb _)
    match b with
    | ⟨0, _⟩ => exact hp.symm
    | ⟨1, _⟩ => rfl
    | ⟨2, _⟩ => rfl
  · rw [if_neg hp]
    refine (concatenate_pair_apply_right (0 : Fin S2x4096x64.rank) _ _
      concatenates_S1x4096x64_S1x4096x64_S2x4096x64_d0 (ix3 p r k) rfl rfl (ix3 (0 : Fin 1) r k) (fun b hne => ?_) ?_).trans (hb _)
    · match b with
      | ⟨0, _⟩ => exact absurd rfl hne
      | ⟨1, _⟩ => rfl
      | ⟨2, _⟩ => rfl
    · show 0 + 1 = p.val
      have := p.isLt
      omega

/-- Total `q` of the three, sliced out and cast to a scalar, is the array's entry `q`. -/
theorem slice_apply (o : (⟨S3x1x1, .f32⟩ : BufTy).Contents (Elt Ideal)) (q : Fin 3) (h : S3x1x1.Slices ![q.val, 0, 0] S1x1x1)
    (i : S_.Idx) :
    shapeCast S_ (extractStridedSlice S1x1x1 ![q.val, 0, 0] o h) shapeCasts_S1x1x1_S_ i = o (ix3 q 0 0) := by
  have h1 : (S_.rowMajor i).val = 0 := Shape.rowMajorPi_zero _ i
  refine (shapeCast_apply _ shapeCasts_S1x1x1_S_ i (ix3 (0 : Fin 1) (0 : Fin 1) (0 : Fin 1)) ?_).trans
    (extractStridedSlice_apply _ o h _ (ix3 q 0 0) (fun a => ?_))
  · rw [h1, Shape.rowMajor_val_three]; rfl
  · match a with
    | ⟨0, _⟩ => rfl
    | ⟨1, _⟩ => rfl
    | ⟨2, _⟩ => rfl

/-- With the three totals the specification's totals of the pairs (first, first), (second, second), (first, second),
    the operations after the call give the specification's loss. -/
theorem tail_mmd (o : (⟨S3x1x1, .f32⟩ : BufTy).Contents (Elt Ideal)) (a b : Cert.Spec.Feat)
    (h0 : o (ix3 0 0 0) = Cert.Spec.total a a) (h1 : o (ix3 1 0 0) = Cert.Spec.total b b)
    (h2 : o (ix3 2 0 0) = Cert.Spec.total a b) :
    tailTerm (F := Ideal) o = fun _ => Cert.Spec.mmd a b := by
  funext i
  have e0 : shapeCast S_ (extractStridedSlice S1x1x1 ![0, 0, 0] o slices_S3x1x1_S1x1x1_0_0_0) shapeCasts_S1x1x1_S_ i
      = o (ix3 0 0 0) := slice_apply o 0 slices_S3x1x1_S1x1x1_0_0_0 i
  have e1 : shapeCast S_ (extractStridedSlice S1x1x1 ![1, 0, 0] o slices_S3x1x1_S1x1x1_1_0_0) shapeCasts_S1x1x1_S_ i
      = o (ix3 1 0 0) := slice_apply o 1 slices_S3x1x1_S1x1x1_1_0_0 i
  have e2 : shapeCast S_ (extractStridedSlice S1x1x1 ![2, 0, 0] o slices_S3x1x1_S1x1x1_2_0_0) shapeCasts_S1x1x1_S_ i
      = o (ix3 2 0 0) := slice_apply o 2 slices_S3x1x1_S1x1x1_2_0_0 i
  show Ideal.div (shapeCast S_ (extractStridedSlice S1x1x1 ![0, 0, 0] o slices_S3x1x1_S1x1x1_0_0_0) shapeCasts_S1x1x1_S_ i)
        (Ideal.ofBits .f32 0x4B800000#32)
      + Ideal.div (shapeCast S_ (extractStridedSlice S1x1x1 ![1, 0, 0] o slices_S3x1x1_S1x1x1_1_0_0) shapeCasts_S1x1x1_S_ i)
        (Ideal.ofBits .f32 0x4B800000#32)
      - Ideal.ofBits .f32 0x40000000#32
        * Ideal.div (shapeCast S_ (extractStridedSlice S1x1x1 ![2, 0, 0] o slices_S3x1x1_S1x1x1_2_0_0) shapeCasts_S1x1x1_S_ i)
          (Ideal.ofBits .f32 0x4B800000#32) = _
  rw [e0, e1, e2, h0, h1, h2]
  rfl

end Cert.KernelIdeal.HostGlue

end
-- ==== Proof.KTotal.lean ====
/-
  The accumulator at a pair's last column tile is the pair's total, and so is the output array's entry.

  The grid's 24 points are 3 pairs times 8 column tiles, point t = 8·p + j. At the pair's first tile the scratch
  accumulator starts again from zero; at every tile it takes in the total of that tile's 4096 × 512 kernel values; at
  the last tile it is copied into entry p of the three-entry output. Given what the two input blocks hold at each point
  (rows of the pair's first feature matrix; rows 512·j … 512·j + 511 of its second), each step adds the specification's
  tile total, the eight steps add up to the pair's total, and the output's entry p, written once at point 8·p + 7, ends
  holding it.
-/
import proofs.«129605_j55473797595639_1_alg».proof.Proof.HandData
import proofs.«129605_j55473797595639_1_alg».proof.Proof.BlockTotal
import proofs.«129605_j55473797595639_1_alg».proof.Proof.Fold
import proofs.«129605_j55473797595639_1_alg».proof.Proof.HostGlue
import Idealize.ShloMosaic.Lib.Pipeline.Value

set_option maxRecDepth 16384

noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (c : Dev nD)

/-- The two arguments' feature matrices. -/
abbrev xf : Cert.Spec.Feat := Cert.KernelIdeal.HostGlue.flat (F := Ideal) (m ((c : Thread nD τ).loc main_arg0))
abbrev yf : Cert.Spec.Feat := Cert.KernelIdeal.HostGlue.flat (F := Ideal) (m ((c : Thread nD τ).loc main_arg1))
/-- Pair `p`'s first and second operand: (x, x), (y, y), (x, y) for `p` = 0, 1, 2. -/
abbrev opA (p : ℕ) : Cert.Spec.Feat := if p = 1 then yf m c else xf m c
abbrev opB (p : ℕ) : Cert.Spec.Feat := if p = 0 then xf m c else yf m c

/-- The accumulator after a point depends on the point's number only. -/
theorem accAt_congr {n n' : ℕ} (h : n = n') (hn : n < (cfgA (F := Ideal)).N) (hn' : n' < (cfgA (F := Ideal)).N) :
    accAt m c n hn = accAt m c n' hn' := by subst h; rfl

/-- One step at point `t` = 8·q + j: the accumulator's value plus the total of column tile `j` of pair `q` — the
    step adds the five-kernel values of the block's pairs of rows, and the blocks' rows are the operands' rows. -/
theorem step_at (hA : ∀ (t : Fin (cfgA (F := Ideal)).N) (r : Fin 4096) (k : Fin 64), blkA m c t (ix3 0 r k) = opA m c (t.val / 8) (ix2 r k))
    (hB : ∀ (t : Fin (cfgA (F := Ideal)).N) (cc : Fin 512) (k : Fin 64), blkB m c t (ix3 0 cc k) = opB m c (t.val / 8) (ix2 ⟨512 * (t.val % 8) + cc.val, by have := cc.isLt; omega⟩ k))
    (t : Fin (cfgA (F := Ideal)).N) (q : ℕ) (j : Fin 8) (hq : t.val / 8 = q) (hj : t.val % 8 = j.val) (s : Vec Ideal S1x1 .f32) :
    step (blkA m c t) (blkB m c t) s (ix2 0 0) = s (ix2 0 0) + Cert.Spec.tileTotal (opA m c q) (opB m c q) j := by
  subst hq
  obtain rfl : j = ⟨t.val % 8, Nat.mod_lt _ (by decide)⟩ := Fin.ext hj.symm
  refine (BlockTotal.pay1_apply (blkA m c t) (blkB m c t) s (ix2 0 0)).trans (congrArg (s (ix2 0 0) + ·) ?_)
  refine Finset.sum_congr rfl fun r _ => Finset.sum_congr rfl fun cc _ => ?_
  exact congrArg₂ Cert.Spec.entryOf (funext fun k => hA t r k) (funext fun k => hB t cc k)

/-- After pair `p`'s last tile the accumulator holds the pair's total: from zero at the first tile, one tile total at
    each of the eight points 8·p … 8·p + 7. -/
theorem acc_pair (hA : ∀ (t : Fin (cfgA (F := Ideal)).N) (r : Fin 4096) (k : Fin 64), blkA m c t (ix3 0 r k) = opA m c (t.val / 8) (ix2 r k))
    (hB : ∀ (t : Fin (cfgA (F := Ideal)).N) (cc : Fin 512) (k : Fin 64), blkB m c t (ix3 0 cc k) = opB m c (t.val / 8) (ix2 ⟨512 * (t.val % 8) + cc.val, by have := cc.isLt; omega⟩ k))
    (p : Fin 3) :
    accAt m c (8 * p.val + 7) (by have := p.isLt; rw [N_A]; omega) (ix2 0 0)
      = Cert.Spec.total (opA m c p.val) (opB m c p.val) := by
  have hp := p.isLt
  have hlt : ∀ j : Fin 8, 8 * p.val + j.val < (cfgA (F := Ideal)).N := fun j => by have := j.isLt; rw [N_A]; omega
  refine Cert.Spec.acc_total (opA m c p.val) (opB m c p.val)
    (fun j => accAt m c (8 * p.val + j.val) (hlt j) (ix2 0 0)) ?_ ?_
  · show accAt m c (8 * p.val + (0 : Fin 8).val) (hlt 0) (ix2 0 0) = 0 + _
    have e := accAt_first m c ⟨8 * p.val + (0 : Fin 8).val, hlt 0⟩ (by show (8 * p.val + 0) % 8 = 0; omega)
    refine (congrFun e (ix2 0 0)).trans ?_
    refine (step_at m c hA hB _ p.val 0 (by show (8 * p.val + 0) / 8 = p.val; omega)
      (by show (8 * p.val + 0) % 8 = 0; omega) _).trans ?_
    rw [BlockTotal.pay3_apply]
  · intro j hj
    show accAt m c (8 * p.val + (j.val + 1)) (hlt ⟨j.val + 1, hj⟩) (ix2 0 0)
      = accAt m c (8 * p.val + j.val) (hlt j) (ix2 0 0) + _
    have hne : ¬ (8 * p.val + (j.val + 1)) % 8 = 0 := by omega
    have e := accAt_next m c ⟨8 * p.val + (j.val + 1), hlt ⟨j.val + 1, hj⟩⟩ hne
    refine (congrFun e (ix2 0 0)).trans ?_
    refine (step_at m c hA hB _ p.val ⟨j.val + 1, hj⟩ (by show (8 * p.val + (j.val + 1)) / 8 = p.val; omega)
      (by show (8 * p.val + (j.val + 1)) % 8 = j.val + 1; omega) _).trans ?_
    refine congrArg (· + Cert.Spec.tileTotal (opA m c p.val) (opB m c p.val) ⟨j.val + 1, hj⟩) ?_
    exact congrFun (accAt_congr m c (by show 8 * p.val + (j.val + 1) - 1 = 8 * p.val + j.val; omega) _ _) (ix2 0 0)

/-- The output's block index at point `t`: entry `t / 8` of the three, nothing on the two unit axes. -/
theorem out_idx : ∀ t : Fin (cfgA (F := Ideal)).N, cc0_transform_2 (grid0.coords t) (0 : Fin 3) = t.val / 8
    ∧ cc0_transform_2 (grid0.coords t) (1 : Fin 3) = 0 ∧ cc0_transform_2 (grid0.coords t) (2 : Fin 3) = 0 :=
  (by decide +kernel : ∀ t : Fin grid0.N, cc0_transform_2 (grid0.coords t) (0 : Fin 3) = t.val / 8
    ∧ cc0_transform_2 (grid0.coords t) (1 : Fin 3) = 0 ∧ cc0_transform_2 (grid0.coords t) (2 : Fin 3) = 0)

/-- What the output array ends holding where it is written: at entry `p`, pair `p`'s total. -/
abbrev outG : S3x1x1.Idx → EReal := fun i => Cert.Spec.total (opA m c (i 0).val) (opB m c (i 0).val)

/-- What a pair's last point writes back is its block of that array: the accumulator there is the pair's total, and
    the block is the array's entry `t / 8`. -/
theorem out_flushed (hA : ∀ (t : Fin (cfgA (F := Ideal)).N) (r : Fin 4096) (k : Fin 64), blkA m c t (ix3 0 r k) = opA m c (t.val / 8) (ix2 r k))
    (hB : ∀ (t : Fin (cfgA (F := Ideal)).N) (cc : Fin 512) (k : Fin 64), blkB m c t (ix3 0 cc k) = opB m c (t.val / 8) (ix2 ⟨512 * (t.val % 8) + cc.val, by have := cc.isLt; omega⟩ k))
    (t : Fin (cfgA (F := Ideal)).N) (hf : ((cfgA (F := Ideal)).win 2).flush t = true) :
    (dats m 0 c).flushed 2 t = (((cfgA (F := Ideal)).win 2).blk t).view.read (Elt Ideal) (outG m c) := by
  have h7 : t.val % 8 = 7 := (flush2 t).mp hf
  have hN : t.val < 24 := lt_of_lt_of_eq t.isLt (N_A (F := Ideal))
  obtain ⟨i0, i1, i2⟩ := out_idx t
  funext y
  show ((cfgA (F := Ideal)).win 2).cut (grid0.coords t) ((dats m 0 c).after 2 t) y = _
  rw [after2]
  refine (BlockTotal.pay2_apply (accAt m c t.val t.isLt) _).trans ?_
  have hp' : t.val / 8 < 3 := by omega
  have e1 := acc_pair m c hA hB ⟨t.val / 8, hp'⟩
  have e2 : accAt m c t.val t.isLt = accAt m c (8 * (t.val / 8) + 7)
      (lt_of_lt_of_eq (by omega : 8 * (t.val / 8) + 7 < 24) (N_A (F := Ideal)).symm) :=
    accAt_congr m c (by omega) _ _
  rw [e2]
  refine e1.trans ?_
  have hy : (y 0).val < 1 := (y 0).isLt
  have he : ((((cfgA (F := Ideal)).win 2).blk t).view.emb y (0 : Fin 3)).val = t.val / 8 := by
    show cc0_transform_2 (grid0.coords t) (0 : Fin 3) * 1 + 1 * (y 0).val = t.val / 8
    rw [i0]; omega
  show _ = Cert.Spec.total (opA m c ((((cfgA (F := Ideal)).win 2).blk t).view.emb y (0 : Fin 3)).val)
    (opB m c ((((cfgA (F := Ideal)).win 2).blk t).view.emb y (0 : Fin 3)).val)
  rw [he]

/-- Entry `p` of the output array after the run is pair `p`'s total: point 8·p + 7 writes it, and every point that
    writes an entry writes that entry's total. -/
theorem out_entry (hA : ∀ (t : Fin (cfgA (F := Ideal)).N) (r : Fin 4096) (k : Fin 64), blkA m c t (ix3 0 r k) = opA m c (t.val / 8) (ix2 r k))
    (hB : ∀ (t : Fin (cfgA (F := Ideal)).N) (cc : Fin 512) (k : Fin 64), blkB m c t (ix3 0 cc k) = opB m c (t.val / 8) (ix2 ⟨512 * (t.val % 8) + cc.val, by have := cc.isLt; omega⟩ k))
    (p : Fin 3) :
    (dats m 0 c).arrAt 2 (cfgA (F := Ideal)).N (ix3 p 0 0 : S3x1x1.Idx)
      = Cert.Spec.total (opA m c p.val) (opB m c p.val) := by
  have hp := p.isLt
  have hlt : 8 * p.val + 7 < (cfgA (F := Ideal)).N := by rw [N_A]; omega
  obtain ⟨i0, i1, i2⟩ := out_idx ⟨8 * p.val + 7, hlt⟩
  have hq : (8 * p.val + 7) / 8 = p.val := by omega
  refine (dats m 0 c).arrAt_apply_of_mem 2 (outG m c) (out_flushed m c hA hB) (cfgA (F := Ideal)).N
    ⟨8 * p.val + 7, hlt⟩ (ix3 p 0 0 : S3x1x1.Idx) hlt ((flush2 _).mpr (by show (8 * p.val + 7) % 8 = 7; omega)) ?_
  show (ix3 p 0 0 : S3x1x1.Idx) ∈ ((View.whole main_v9).slice ((((cfgA (F := Ideal)).win 2)).rect ⟨8 * p.val + 7, hlt⟩)).set
  rw [View.set_slice_whole, Rect.mem_set_unit]
  intro a
  match a with
  | ⟨0, _⟩ =>
    show cc0_transform_2 (grid0.coords ⟨8 * p.val + 7, hlt⟩) (0 : Fin 3) * 1 ≤ p.val
      ∧ p.val < cc0_transform_2 (grid0.coords ⟨8 * p.val + 7, hlt⟩) (0 : Fin 3) * 1 + 1
    rw [i0]; show (8 * p.val + 7) / 8 * 1 ≤ p.val ∧ p.val < (8 * p.val + 7) / 8 * 1 + 1; omega
  | ⟨1, _⟩ =>
    show cc0_transform_2 (grid0.coords ⟨8 * p.val + 7, hlt⟩) (1 : Fin 3) * 1 ≤ 0
      ∧ 0 < cc0_transform_2 (grid0.coords ⟨8 * p.val + 7, hlt⟩) (1 : Fin 3) * 1 + 1
    rw [i1]; omega
  | ⟨2, _⟩ =>
    show cc0_transform_2 (grid0.coords ⟨8 * p.val + 7, hlt⟩) (2 : Fin 3) * 1 ≤ 0
      ∧ 0 < cc0_transform_2 (grid0.coords ⟨8 * p.val + 7, hlt⟩) (2 : Fin 3) * 1 + 1
    rw [i2]; omega

end Cert.KernelIdeal.Hand
end
-- ==== Proof.KBlocks.lean ====
/-
  The kernel's two input blocks, read at an index.

  The call reads the stacked array of the two flattened arguments (two matrices of 4096 rows by 64 channels) through
  two windows whose block indices come from two tables of three words, (0, 1, 0) and (0, 1, 1). At grid point
  t = 8p + j (pair p, column tile j) the first window's block is the whole matrix the first table names for pair p,
  and the second window's block is rows 512 j … 512 j + 511 of the matrix the second table names for pair p. A block's
  coordinate in the array is always its block index times the block's extent plus the coordinate inside the block;
  the block indices are decided once over the 24 grid points.
-/
import proofs.«129605_j55473797595639_1_alg».proof.Proof.HandData
import proofs.«129605_j55473797595639_1_alg».proof.Proof.HostGlue
import Idealize.ShloMosaic.Lib.Pipeline.Value
import Idealize.ShloMosaic.Lib.StableHlo.Run
import Idealize.ShloMosaic.Lib.ValueIdx

set_option maxRecDepth 16384

noncomputable section
namespace Cert.KernelIdeal.Hand
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Generic
variable {F : FTy → Type} [FloatOps F]
variable (m : (ℓ : Loc nD τ sig) → Buf (Elt F) ℓ) (c : Dev nD)

/-- The stacked array the region reads is the two flattened arguments, stacked. -/
theorem V_feat : V m c main_v8
    = Cert.KernelIdeal.HostGlue.feat (m ((c : Thread nD τ).loc main_arg0)) (m ((c : Thread nD τ).loc main_arg1)) := by
  dsimp only [V, hostOps0]; after_results; rfl

end Generic

section AtIdeal
variable (m : (ℓ : Loc nD τ sig) → Buf (Elt Ideal) ℓ) (c : Dev nD)

/-- The first window's block index at point `t = 8p + j`: the first table's word `p` (1 for the middle pair, else 0)
    along the stacking axis, zero along rows and channels. -/
theorem idxA : ∀ t : Fin (cfgA (F := Ideal)).N,
    ((cfgA (F := Ideal)).win 0).index t (0 : Fin 3) = (if t.val / 8 = 1 then 1 else 0)
      ∧ ((cfgA (F := Ideal)).win 0).index t (1 : Fin 3) = 0
      ∧ ((cfgA (F := Ideal)).win 0).index t (2 : Fin 3) = 0 :=
  (by decide +kernel : ∀ t : Fin grid0.N,
    cc0_transform_0 Facts₀.k0_off1_inb Facts₀.numel1_S1 (tbl (F := Ideal)) (grid0.coords t) (0 : Fin 3) = (if t.val / 8 = 1 then 1 else 0)
      ∧ cc0_transform_0 Facts₀.k0_off1_inb Facts₀.numel1_S1 (tbl (F := Ideal)) (grid0.coords t) (1 : Fin 3) = 0
      ∧ cc0_transform_0 Facts₀.k0_off1_inb Facts₀.numel1_S1 (tbl (F := Ideal)) (grid0.coords t) (2 : Fin 3) = 0)

/-- The second window's block index at point `t = 8p + j`: the second table's word `p` (0 for the first pair, else 1)
    along the stacking axis, the column tile `j` along rows, zero along channels. -/
theorem idxB : ∀ t : Fin (cfgA (F := Ideal)).N,
    ((cfgA (F := Ideal)).win 1).index t (0 : Fin 3) = (if t.val / 8 = 0 then 0 else 1)
      ∧ ((cfgA (F := Ideal)).win 1).index t (1 : Fin 3) = t.val % 8
      ∧ ((cfgA (F := Ideal)).win 1).index t (2 : Fin 3) = 0 :=
  (by decide +kernel : ∀ t : Fin grid0.N,
    cc0_transform_1 Facts₀.k0_off1_inb Facts₀.numel1_S1 (tbl (F := Ideal)) (grid0.coords t) (0 : Fin 3) = (if t.val / 8 = 0 then 0 else 1)
      ∧ cc0_transform_1 Facts₀.k0_off1_inb Facts₀.numel1_S1 (tbl (F := Ideal)) (grid0.coords t) (1 : Fin 3) = t.val % 8
      ∧ cc0_transform_1 Facts₀.k0_off1_inb Facts₀.numel1_S1 (tbl (F := Ideal)) (grid0.coords t) (2 : Fin 3) = 0)

/-- THE RESIDENT OPERAND'S BLOCK at point `t = 8p + j`: the whole feature matrix of the pair's first operand —
    the second argument's for the middle pair, the first argument's for the other two. -/
theorem blkA_apply (t : Fin (cfgA (F := Ideal)).N) (r : Fin 4096) (k : Fin 64) :
    blkA m c t (ix3 0 r k)
      = (if t.val / 8 = 1 then Cert.KernelIdeal.HostGlue.flat (F := Ideal) (m ((c : Thread nD τ).loc main_arg1))
          else Cert.KernelIdeal.HostGlue.flat (F := Ideal) (m ((c : Thread nD τ).loc main_arg0))) (ix2 r k) := by
  obtain ⟨e0, e1, e2⟩ := idxA t
  show (((cfgA (F := Ideal)).win 0).blk t).view.read (Elt Ideal) (V m c (Pipeline.arrRef spec0 0)) (ix3 0 r k) = _
  rw [View.read_apply]
  show V m c main_v8 ((((cfgA (F := Ideal)).win 0).blk t).view.emb (ix3 0 r k)) = _
  rw [V_feat]
  by_cases h : t.val / 8 = 1
  · rw [if_pos h] at e0 ⊢
    have hemb : (((cfgA (F := Ideal)).win 0).blk t).view.emb (ix3 0 r k) = ix3 (1 : Fin 2) r k := by
      funext a; apply Fin.ext
      match a with
      | ⟨0, _⟩ => show ((cfgA (F := Ideal)).win 0).index t (0 : Fin 3) * 1 + 1 * 0 = 1; rw [e0]
      | ⟨1, _⟩ => show ((cfgA (F := Ideal)).win 0).index t (1 : Fin 3) * 4096 + 1 * r.val = r.val; rw [e1]; omega
      | ⟨2, _⟩ => show ((cfgA (F := Ideal)).win 0).index t (2 : Fin 3) * 64 + 1 * k.val = k.val; rw [e2]; omega
    rw [hemb, Cert.KernelIdeal.HostGlue.feat_apply]
    rfl
  · rw [if_neg h] at e0 ⊢
    have hemb : (((cfgA (F := Ideal)).win 0).blk t).view.emb (ix3 0 r k) = ix3 (0 : Fin 2) r k := by
      funext a; apply Fin.ext
      match a with
      | ⟨0, _⟩ => show ((cfgA (F := Ideal)).win 0).index t (0 : Fin 3) * 1 + 1 * 0 = 0; rw [e0]
      | ⟨1, _⟩ => show ((cfgA (F := Ideal)).win 0).index t (1 : Fin 3) * 4096 + 1 * r.val = r.val; rw [e1]; omega
      | ⟨2, _⟩ => show ((cfgA (F := Ideal)).win 0).index t (2 : Fin 3) * 64 + 1 * k.val = k.val; rw [e2]; omega
    rw [hemb, Cert.KernelIdeal.HostGlue.feat_apply]
    rfl

/-- THE COLUMN TILE'S BLOCK at point `t = 8p + j`: rows `512 j … 512 j + 511` of the feature matrix of the pair's
    second operand — the first argument's for the first pair, the second argument's for the other two. -/
theorem blkB_apply (t : Fin (cfgA (F := Ideal)).N) (cc : Fin 512) (k : Fin 64) :
    blkB m c t (ix3 0 cc k)
      = (if t.val / 8 = 0 then Cert.KernelIdeal.HostGlue.flat (F := Ideal) (m ((c : Thread nD τ).loc main_arg0))
          else Cert.KernelIdeal.HostGlue.flat (F := Ideal) (m ((c : Thread nD τ).loc main_arg1)))
        (ix2 ⟨512 * (t.val % 8) + cc.val, by have := cc.isLt; omega⟩ k) := by
  obtain ⟨e0, e1, e2⟩ := idxB t
  show (((cfgA (F := Ideal)).win 1).blk t).view.read (Elt Ideal) (V m c (Pipeline.arrRef spec0 1)) (ix3 0 cc k) = _
  rw [View.read_apply]
  show V m c main_v8 ((((cfgA (F := Ideal)).win 1).blk t).view.emb (ix3 0 cc k)) = _
  rw [V_feat]
  by_cases h : t.val / 8 = 0
  · rw [if_pos h] at e0 ⊢
    have hemb : (((cfgA (F := Ideal)).win 1).blk t).view.emb (ix3 0 cc k)
        = ix3 (0 : Fin 2) (⟨512 * (t.val % 8) + cc.val, by have := cc.isLt; omega⟩ : Fin 4096) k := by
      funext a; apply Fin.ext
      match a with
      | ⟨0, _⟩ => show ((cfgA (F := Ideal)).win 1).index t (0 : Fin 3) * 1 + 1 * 0 = 0; rw [e0]
      | ⟨1, _⟩ =>
        show ((cfgA (F := Ideal)).win 1).index t (1 : Fin 3) * 512 + 1 * cc.val = 512 * (t.val % 8) + cc.val
        rw [e1]; omega
      | ⟨2, _⟩ => show ((cfgA (F := Ideal)).win 1).index t (2 : Fin 3) * 64 + 1 * k.val = k.val; rw [e2]; omega
    rw [hemb, Cert.KernelIdeal.HostGlue.feat_apply]
    rfl
  · rw [if_neg h] at e0 ⊢
    have hemb : (((cfgA (F := Ideal)).win 1).blk t).view.emb (ix3 0 cc k)
        = ix3 (1 : Fin 2) (⟨512 * (t.val % 8) + cc.val, by have := cc.isLt; omega⟩ : Fin 4096) k := by
      funext a; apply Fin.ext
      match a with
      | ⟨0, _⟩ => show ((cfgA (F := Ideal)).win 1).index t (0 : Fin 3) * 1 + 1 * 0 = 1; rw [e0]
      | ⟨1, _⟩ =>
        show ((cfgA (F := Ideal)).win 1).index t (1 : Fin 3) * 512 + 1 * cc.val = 512 * (t.val % 8) + cc.val
        rw [e1]; omega
      | ⟨2, _⟩ => show ((cfgA (F := Ideal)).win 1).index t (2 : Fin 3) * 64 + 1 * k.val = k.val; rw [e2]; omega
    rw [hemb, Cert.KernelIdeal.HostGlue.feat_apply]
    rfl

end AtIdeal

end Cert.KernelIdeal.Hand
end
-- ==== Proof.KResult.lean ====
import proofs.«129605_j55473797595639_1_alg».proof.Proof.HandRun
import proofs.«129605_j55473797595639_1_alg».proof.Proof.KTotal
import proofs.«129605_j55473797595639_1_alg».proof.Proof.KBlocks
import proofs.«129605_j55473797595639_1_alg».proof.Proof.HostGlue

set_option maxRecDepth 16384

noncomputable section
namespace Cert.KernelIdeal.Hand
open Cert.KernelIdeal Cert.KernelIdeal.Gen
open Idealize.ShloMosaic Idealize.ShloMosaic.TcCoe Idealize.ShloMosaic.ValueIdx
open Idealize.SL Idealize.SL.Sem

/-! The kernel's result, on the extended reals, is the loss of the two flattened arguments.

The output array's three entries are the totals of the pairs (x, x), (y, y), (x, y) — each accumulated over its eight
column tiles —, and the lines after the call divide each by 2²⁴ and combine them as mean(x, x) + mean(y, y) − 2·mean(x, y). -/

variable (m : (ℓ : Loc nD τ sig) → Buf (Elt Ideal) ℓ) (c : Dev nD)

/-- The result buffer ends at the lines' term of the region's output array. -/
theorem W3_v21 : W3 m c (Proc.devRef .tc main_v21) = Cert.KernelIdeal.HostGlue.tailTerm (outArr m c) := by
  have e9 : W2 m c (Proc.devRef .tc main_v9) = outArr m c := by unfold W2; rw [Function.update_self]
  dsimp only [W3, hostOps1]; after_results
  rw [e9]; rfl

/-- The resident operand's block at point `t` is the whole feature matrix of the pair's first operand; -/
theorem blkA_op (t : Fin (cfgA (F := Ideal)).N) (r : Fin 4096) (k : Fin 64) :
    blkA m c t (ix3 0 r k) = opA m c (t.val / 8) (ix2 r k) := blkA_apply m c t r k
/-- the column tile's block is rows 512·j … 512·j + 511 of the pair's second operand. -/
theorem blkB_op (t : Fin (cfgA (F := Ideal)).N) (cc : Fin 512) (k : Fin 64) :
    blkB m c t (ix3 0 cc k) = opB m c (t.val / 8) (ix2 ⟨512 * (t.val % 8) + cc.val, by have := cc.isLt; omega⟩ k) := blkB_apply m c t cc k

/-- THE KERNEL'S VALUE: the result buffer ends at the loss of the flattened arguments. -/
theorem result_spec : W3 m c (Proc.devRef .tc main_v21) = fun _ => Cert.Spec.mmd (xf m c) (yf m c) := by
  rw [W3_v21]
  refine Cert.KernelIdeal.HostGlue.tail_mmd (outArr m c) (xf m c) (yf m c) ?_ ?_ ?_
  · exact out_entry m c (blkA_op m c) (blkB_op m c) 0
  · exact out_entry m c (blkA_op m c) (blkB_op m c) 1
  · exact out_entry m c (blkA_op m c) (blkB_op m c) 2

end Cert.KernelIdeal.Hand
end
-- ==== Proof.lean ====
/-
  Kernel-equivalence certificate: a multi-kernel MMD loss.

  Both programs flatten x, y : f32[4, 64, 32, 32] to feature matrices of 4096 rows and 64 channels. For a pair (a, b)
  of matrices the kernel value of rows r, c is Σ over five literal β of exp(β · max(|a_r|² + |b_c|² − 2⟨a_r, b_c⟩, 0)),
  a pair's mean is the total over all 4096² pairs of rows divided by 2²⁴, and the loss is
  mean(x, x) + mean(y, y) − 2·mean(x, y) (`Cert.Spec.mmd`).

  The reference computes each 4096 × 4096 matrix of kernel values on the host and sums it. The Pallas kernel runs a grid of
  3 pairs × 8 column tiles: at each point it adds the total of a 4096 × 512 tile to a one-element scratch accumulator, reset
  at a pair's first tile and copied to the pair's output entry at its last; the operands of a pair are picked out of the
  stacked [2, 4096, 64] array by two prefetched tables, (0, 1, 0) and (0, 1, 1). On the extended reals addition is
  commutative and associative, so the eight tile totals add up to the whole total (no finiteness is used), and every other
  operation is the same on the two sides, literal for literal.

  The frames of the two kernel programs are one proof, generic in the float instance: the body's three cases (first, middle,
  last tile), the region's invariant carrying the accumulator from point to point, and @main as three segments — the host
  operations before the call, the region, the host operations after it; the stacked array, read by both input windows, is
  held half and half. The reference's run and its operations read at an index are the generated modules.
-/
import proofs.«129605_j55473797595639_1_alg».proof.Defs
import proofs.«129605_j55473797595639_1_alg».proof.Proof.Gen.Kernel
import proofs.«129605_j55473797595639_1_alg».proof.Proof.Gen.KernelIdeal
import proofs.«129605_j55473797595639_1_alg».proof.Proof.Gen.ReferenceIdeal
import proofs.«129605_j55473797595639_1_alg».proof.Proof.Gen.Pre_finite_inputs
import proofs.«129605_j55473797595639_1_alg».proof.Proof.Gen.ReferenceIdeal.Run
import proofs.«129605_j55473797595639_1_alg».proof.Proof.Gen.ReferenceIdeal.Read
import proofs.«129605_j55473797595639_1_alg».proof.Proof.BitsRun
import proofs.«129605_j55473797595639_1_alg».proof.Proof.KResult
import proofs.«129605_j55473797595639_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ =>
  (θ_run Cert.Kernel.defs _ _).mono (fun _ h c => ⟨(h c).2.1, (h c).2.2⟩) (Cert.Kernel.Hand.run_main (F := Bits) m ρ)

/-- So does its reading on the extended reals; -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- and the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- On the extended reals both programs end at the loss of the flattened arguments (`Cert.Spec.mmd`): the kernel by its
    accumulation over the grid, the reference by its operations read at an index; the two flatten the arguments by the same
    three operations. -/
theorem algebraic : Cert.algebraic_KernelIdeal_ReferenceIdeal := by
  intro m ρ m' ρ' _ hagree
  refine ⟨fun c => fun _ => Cert.Spec.mmd (Cert.KernelIdeal.Hand.xf m c) (Cert.KernelIdeal.Hand.yf m c), ?_, ?_⟩
  · exact (θ_run Cert.KernelIdeal.defs _ _).mono
      (fun _ h c => ⟨(h c).1.trans (Cert.KernelIdeal.Hand.result_spec m c), (h c).2.1, (h c).2.2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v125_eq, Cert.ReferenceIdeal.RefSpec.result_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
